-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S15x64x256x256 : Shape := ⟨4, ![15, 64, 256, 256]⟩
abbrev S15x128x252x252 : Shape := ⟨4, ![15, 128, 252, 252]⟩
abbrev S16x3 : Shape := ⟨2, ![16, 3]⟩
abbrev S128x64x5x5 : Shape := ⟨4, ![128, 64, 5, 5]⟩
abbrev S128 : Shape := ⟨1, ![128]⟩
abbrev S_ : Shape := ⟨0, ![]⟩

class Facts : Prop where
  bcast_S_S15x64x256x256 : S_.BroadcastsInDim S15x64x256x256 (![] : Fin 0 → Fin S15x64x256x256.rank)
  reducesTo_S15x64x256x256_S_d0_1_2_3 : S15x64x256x256.ReducesTo [0, 1, 2, 3] S_
  h_S_ : 0 < S_.numel
  bcast_S_S15x128x252x252 : S_.BroadcastsInDim S15x128x252x252 (![] : Fin 0 → Fin S15x128x252x252.rank)
  reducesTo_S15x128x252x252_S_d0_1_2_3 : S15x128x252x252.ReducesTo [0, 1, 2, 3] S_
  bcast_S_S128x64x5x5 : S_.BroadcastsInDim S128x64x5x5 (![] : Fin 0 → Fin S128x64x5x5.rank)
  reducesTo_S128x64x5x5_S_d0_1_2_3 : S128x64x5x5.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S15x64x256x256 .f32) (main_arg1 : FVec F S15x128x252x252 .f32) (main_arg2 : IVec S16x3 32) (main_arg3 : FVec F S128x64x5x5 .f32) (main_arg4 : FVec F S128 .f32) (main_arg5 : FVec F S128 .f32) : IVec S_ 1 :=
  let main_v0 : FVec F S15x64x256x256 .f32 := Host.absf main_arg0
  let main_cst : FVec F S_ .f32 := constant S_ .f32 0x7F800000#32
  let main_v1 : FVec F S15x64x256x256 .f32 := broadcastInDim S15x64x256x256 ![] bcast_S_S15x64x256x256 main_cst
  let main_v2 : IVec S15x64x256x256 1 := cmpf .olt main_v0 main_v1
  let main_c : IVec S_ 1 := constantI S_ 1 1#1
  let main_v3 : IVec S_ 1 := (fun x v => Host.reduce IntOp.andi x v reducesTo_S15x64x256x256_S_d0_1_2_3 h_S_) main_v2 main_c
  let main_v4 : FVec F S15x128x252x252 .f32 := Host.absf main_arg1
  let main_cst_0 : FVec F S_ .f32 := constant S_ .f32 0x7F800000#32
  let main_v5 : FVec F S15x128x252x252 .f32 := broadcastInDim S15x128x252x252 ![] bcast_S_S15x128x252x252 main_cst_0
  let main_v6 : IVec S15x128x252x252 1 := cmpf .olt main_v4 main_v5
  let main_c_1 : IVec S_ 1 := constantI S_ 1 1#1
  let main_v7 : IVec S_ 1 := (fun x v => Host.reduce IntOp.andi x v reducesTo_S15x128x252x252_S_d0_1_2_3 h_S_) main_v6 main_c_1
  let main_v8 : IVec S_ 1 := andi main_v3 main_v7
  let main_v9 : FVec F S128x64x5x5 .f32 := Host.absf main_arg3
  let main_cst_2 : FVec F S_ .f32 := constant S_ .f32 0x7F800000#32
  let main_v10 : FVec F S128x64x5x5 .f32 := broadcastInDim S128x64x5x5 ![] bcast_S_S128x64x5x5 main_cst_2
  let main_v11 : IVec S128x64x5x5 1 := cmpf .olt main_v9 main_v10
  let main_c_3 : IVec S_ 1 := constantI S_ 1 1#1
  let main_v12 : IVec S_ 1 := (fun x v => Host.reduce IntOp.andi x v reducesTo_S128x64x5x5_S_d0_1_2_3 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S15x64x256x256 : Shape := ⟨4, ![15, 64, 256, 256]⟩
abbrev S15x128x252x252 : Shape := ⟨4, ![15, 128, 252, 252]⟩
abbrev S16x3 : Shape := ⟨2, ![16, 3]⟩
abbrev S128x64x5x5 : Shape := ⟨4, ![128, 64, 5, 5]⟩
abbrev S128 : Shape := ⟨1, ![128]⟩
abbrev S64x256x256 : Shape := ⟨3, ![64, 256, 256]⟩
abbrev S15x64x8x256 : Shape := ⟨4, ![15, 64, 8, 256]⟩
abbrev S64x8x256 : Shape := ⟨3, ![64, 8, 256]⟩
abbrev S128x252x252 : Shape := ⟨3, ![128, 252, 252]⟩
abbrev S15x2x252x252 : Shape := ⟨4, ![15, 2, 252, 252]⟩
abbrev S2x252x252 : Shape := ⟨3, ![2, 252, 252]⟩
abbrev S16x1 : Shape := ⟨2, ![16, 1]⟩
abbrev S16 : Shape := ⟨1, ![16]⟩
abbrev S_ : Shape := ⟨0, ![]⟩
abbrev S16x64x5x5 : Shape := ⟨4, ![16, 64, 5, 5]⟩
abbrev S16x1x1x1 : Shape := ⟨4, ![16, 1, 1, 1]⟩

abbrev nBuf : Space → Nat
  | .hbm => 117
  | .vmem => 8
  | .smem => 0
  | _ => 0

abbrev bufTy : (tb : Table) → Fin (tcTables nBuf tb) → BufTy
  | .hbm, ⟨0, _⟩ => ⟨S15x64x256x256, .f32⟩
  | .hbm, ⟨1, _⟩ => ⟨S15x128x252x252, .f32⟩
  | .hbm, ⟨2, _⟩ => ⟨S16x3, .i32⟩
  | .hbm, ⟨3, _⟩ => ⟨S128x64x5x5, .f32⟩
  | .hbm, ⟨4, _⟩ => ⟨S128, .f32⟩
  | .hbm, ⟨5, _⟩ => ⟨S128, .f32⟩
  | .hbm, ⟨6, _⟩ => ⟨S64x256x256, .f32⟩
  | .hbm, ⟨7, _⟩ => ⟨S128x252x252, .f32⟩
  | .hbm, ⟨8, _⟩ => ⟨S16x1, .i32⟩
  | .hbm, ⟨9, _⟩ => ⟨S16, .i32⟩
  | .hbm, ⟨10, _⟩ => ⟨S16x1, .i32⟩
  | .hbm, ⟨11, _⟩ => ⟨S16, .i32⟩
  | .hbm, ⟨12, _⟩ => ⟨S16x1, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16x1, .i32⟩
  | .hbm, ⟨30, _⟩ => ⟨S16x1, .i32⟩
  | .hbm, ⟨31, _⟩ => ⟨S16x1, .i32⟩
  | .hbm, ⟨32, _⟩ => ⟨S16x3, .i32⟩
  | .hbm, ⟨33, _⟩ => ⟨S16x64x5x5, .f32⟩
  | .hbm, ⟨34, _⟩ => ⟨S_, .i32⟩
  | .hbm, ⟨35, _⟩ => ⟨S16, .i32⟩
  | .hbm, ⟨36, _⟩ => ⟨S16, .i1⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S_, .i32⟩
  | .hbm, ⟨45, _⟩ => ⟨S16, .i32⟩
  | .hbm, ⟨46, _⟩ => ⟨S16, .i32⟩
  | .hbm, ⟨47, _⟩ => ⟨S16, .i32⟩
  | .hbm, ⟨48, _⟩ => ⟨S_, .i32⟩
  | .hbm, ⟨49, _⟩ => ⟨S16, .i32⟩
  | .hbm, ⟨50, _⟩ => ⟨S16, .i1⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S16x1, .i32⟩
  | .hbm, ⟨56, _⟩ => ⟨S16x1, .i32⟩
  | .hbm, ⟨57, _⟩ => ⟨S16x1, .i32⟩
  | .hbm, ⟨58, _⟩ => ⟨S16x3, .i32⟩
  | .hbm, ⟨59, _⟩ => ⟨S16x1x1x1, .f32⟩
  | .hbm, ⟨60, _⟩ => ⟨S16, .f32⟩
  | .hbm, ⟨61, _⟩ => ⟨S16x1x1x1, .f32⟩
  | .hbm, ⟨62, _⟩ => ⟨S16x64x5x5, .f32⟩
  | .hbm, ⟨63, _⟩ => ⟨S16x64x5x5, .i1⟩
  | .hbm, ⟨64, _⟩ => ⟨S16x1, .i32⟩
  | .hbm, ⟨65, _⟩ => ⟨S16, .i32⟩
  | .hbm, ⟨66, _⟩ => ⟨S_, .i32⟩
  | .hbm, ⟨67, _⟩ => ⟨S16, .i32⟩
  | .hbm, ⟨68, _⟩ => ⟨S16, .i1⟩
  | .hbm, ⟨69, _⟩ => ⟨S_, .i32⟩
  | .hbm, ⟨70, _⟩ => ⟨S16, .i32⟩
  | .hbm, ⟨71, _⟩ => ⟨S16, .i32⟩
  | .hbm, ⟨72, _⟩ => ⟨S16, .i32⟩
  | .hbm, ⟨73, _⟩ => ⟨S16x1, .i32⟩
  | .hbm, ⟨74, _⟩ => ⟨S16, .f32⟩
  | .hbm, ⟨75, _⟩ => ⟨S16x1x1x1, .f32⟩
  | .hbm, ⟨76, _⟩ => ⟨S_, .i32⟩
  | .hbm, ⟨77, _⟩ => ⟨S16, .i32⟩
  | .hbm, ⟨78, _⟩ => ⟨S16, .i1⟩
  | .hbm, ⟨79, _⟩ => ⟨S_, .i32⟩
  | .hbm, ⟨80, _⟩ => ⟨S16, .i32⟩
  | .hbm, ⟨81, _⟩ => ⟨S16, .i32⟩
  | .hbm, ⟨82, _⟩ => ⟨S16, .i32⟩
  | .hbm, ⟨83, _⟩ => ⟨S16x1, .i32⟩
  | .hbm, ⟨84, _⟩ => ⟨S16, .f32⟩
  | .hbm, ⟨85, _⟩ => ⟨S16x1x1x1, .f32⟩
  | .hbm, ⟨86, _⟩ => ⟨S16x64x5x5, .f32⟩
  | .hbm, ⟨87, _⟩ => ⟨S16x64x5x5, .f32⟩
  | .hbm, ⟨88, _⟩ => ⟨S16x64x5x5, .f32⟩
  | .hbm, ⟨89, _⟩ => ⟨S_, .f32⟩
  | .hbm, ⟨90, _⟩ => ⟨S128x64x5x5, .f32⟩
  | .hbm, ⟨91, _⟩ => ⟨S_, .i32⟩
  | .hbm, ⟨92, _⟩ => ⟨S16, .i32⟩
  | .hbm, ⟨93, _⟩ => ⟨S16, .i1⟩
  | .hbm, ⟨94, _⟩ => ⟨S_, .i32⟩
  | .hbm, ⟨95, _⟩ => ⟨S16, .i32⟩
  | .hbm, ⟨96, _⟩ => ⟨S16, .i32⟩
  | .hbm, ⟨97, _⟩ => ⟨S16, .i32⟩
  | .hbm, ⟨98, _⟩ => ⟨S16x1, .i32⟩
  | .hbm, ⟨99, _⟩ => ⟨S128x64x5x5, .f32⟩
  | .hbm, ⟨100, _⟩ => ⟨S_, .f32⟩
  | .hbm, ⟨101, _⟩ => ⟨S128x64x5x5, .f32⟩
  | .hbm, ⟨102, _⟩ => ⟨S128x64x5x5, .f32⟩
  | .hbm, ⟨103, _⟩ => ⟨S_, .f32⟩
  | .hbm, ⟨104, _⟩ => ⟨S128x64x5x5, .f32⟩
  | .hbm, ⟨105, _⟩ => ⟨S128x64x5x5, .f32⟩
  | .hbm, ⟨106, _⟩ => ⟨S128x64x5x5, .f32⟩
  | .hbm, ⟨107, _⟩ => ⟨S128x64x5x5, .f32⟩
  | .hbm, ⟨108, _⟩ => ⟨S128x64x5x5, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S128x64x5x5, .f32⟩
  | .hbm, ⟨113, _⟩ => ⟨S128x64x5x5, .f32⟩
  | .hbm, ⟨114, _⟩ => ⟨S_, .f32⟩
  | .hbm, ⟨115, _⟩ => ⟨S128x64x5x5, .f32⟩
  | .hbm, ⟨116, _⟩ => ⟨S128x64x5x5, .f32⟩
  | .local _ .vmem, ⟨0, _⟩ => ⟨S15x64x8x256, .f32⟩
  | .local _ .vmem, ⟨1, _⟩ => ⟨S15x64x8x256, .f32⟩
  | .local _ .vmem, ⟨2, _⟩ => ⟨S64x8x256, .f32⟩
  | .local _ .vmem, ⟨3, _⟩ => ⟨S64x8x256, .f32⟩
  | .local _ .vmem, ⟨4, _⟩ => ⟨S15x2x252x252, .f32⟩
  | .local _ .vmem, ⟨5, _⟩ => ⟨S15x2x252x252, .f32⟩
  | .local _ .vmem, ⟨6, _⟩ => ⟨S2x252x252, .f32⟩
  | .local _ .vmem, ⟨7, _⟩ => ⟨S2x252x252, .f32⟩
  | _, _ => ⟨S15x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_8 : Ref sig .tc := ⟨.hbm, 48, rfl⟩
abbrev main_v33 : Ref sig .tc := ⟨.hbm, 49, rfl⟩
abbrev main_v34 : Ref sig .tc := ⟨.hbm, 50, rfl⟩
abbrev main_c_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_12 : Ref sig .tc := ⟨.hbm, 76, rfl⟩
abbrev main_v57 : Ref sig .tc := ⟨.hbm, 77, rfl⟩
abbrev main_v58 : Ref sig .tc := ⟨.hbm, 78, rfl⟩
abbrev main_c_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call0_v0 : Ref sig .tc := ⟨.hbm, 86, rfl⟩
abbrev main_call0_v1 : Ref sig .tc := ⟨.hbm, 87, rfl⟩
abbrev main_v65 : Ref sig .tc := ⟨.hbm, 88, rfl⟩
abbrev main_cst : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_cst_19 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_v81 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S15x64x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S15x2x252x252 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x252x252 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S15x64x8x256_S15x64x8x256_0_0_0_0 : ∀ a, (![0, 0, 0, 0] : Fin 4 → Nat) a + S15x64x8x256.size a ≤ S15x64x8x256.size a
  h_S15x64x8x256 : 0 < S15x64x8x256.numel
  reduces_S15x64x8x256_S64x8x256 : S15x64x8x256.Reduces [0] S64x8x256
  inb_S64x8x256_S64x8x256_0_0_0 : ∀ a, (![0, 0, 0] : Fin 3 → Nat) a + S64x8x256.size a ≤ S64x8x256.size a
  h_S64x8x256 : 0 < S64x8x256.numel
  inb_S15x2x252x252_S15x2x252x252_0_0_0_0 : ∀ a, (![0, 0, 0, 0] : Fin 4 → Nat) a + S15x2x252x252.size a ≤ S15x2x252x252.size a
  h_S15x2x252x252 : 0 < S15x2x252x252.numel
  reduces_S15x2x252x252_S2x252x252 : S15x2x252x252.Reduces [0] S2x252x252
  inb_S2x252x252_S2x252x252_0_0_0 : ∀ a, (![0, 0, 0] : Fin 3 → Nat) a + S2x252x252.size a ≤ S2x252x252.size a
  h_S2x252x252 : 0 < S2x252x252.numel
  slices_S16x3_S16x1_0_0 : S16x3.Slices ![0, 0] S16x1
  shapeCasts_S16x1_S16 : S16x1.ShapeCasts S16
  slices_S16x3_S16x1_0_1 : S16x3.Slices ![0, 1] S16x1
  slices_S16x3_S16x1_0_2 : S16x3.Slices ![0, 2] S16x1
  bcast_S_S16 : S_.BroadcastsInDim S16 (![] : Fin 0 → Fin S16.rank)
  bcast_S_S16x1 : S_.BroadcastsInDim S16x1 (![] : Fin 0 → Fin S16x1.rank)
  bcast_S16_S16x1_0 : S16.BroadcastsInDim S16x1 (![0] : Fin 1 → Fin S16x1.rank)
  concatenates_S16x1_S16x1_S16x1_S16x3_d1 : Shape.Concatenates [S16x1, S16x1, S16x1] S16x3 1
  shapeCasts_S16x1x1x1_S16 : S16x1x1x1.ShapeCasts S16
  bcast_S16_S16x1x1x1_0 : S16.BroadcastsInDim S16x1x1x1 (![0] : Fin 1 → Fin S16x1x1x1.rank)
  bcast_S16x1x1x1_S16x64x5x5_0_1_2_3 : S16x1x1x1.BroadcastsInDim S16x64x5x5 (![0, 1, 2, 3] : Fin 4 → Fin S16x64x5x5.rank)
  bcast_S_S128x64x5x5 : S_.BroadcastsInDim S128x64x5x5 (![] : Fin 0 → Fin S128x64x5x5.rank)
  gather_S64x256x256_S16x3_S16x64x5x5_123_n_n_n_012_1_6455_wf : GatherDims.WF S64x256x256 S16x3 S16x64x5x5 [1, 2, 3] [] [] [0, 1, 2] [] 1 ![64, 5, 5]
  gather_S128x252x252_S16x3_S16x1x1x1_123_n_n_n_012_1_111_wf : GatherDims.WF S128x252x252 S16x3 S16x1x1x1 [1, 2, 3] [] [] [0, 1, 2] [] 1 ![1, 1, 1]
  gather_S128_S16x1_S16_n_0_n_n_0_1_1_wf : GatherDims.WF S128 S16x1 S16 [] [0] [] [0] [] 1 ![1]
  scatter_S128x64x5x5_S16x1_S16x64x5x5_123_0_0_1_wf : ScatterDims.WF S128x64x5x5 S16x1 S16x64x5x5 [1, 2, 3] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15x64x8x256.size a ≤ S15x64x256x256.size a
  hwx0_0 : ∀ i : grid0.Coords, EltTy.bits .f32 = 32 ∨ (Rect.block (s := S15x64x256x256) S15x64x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x256.size a ≤ S64x256x256.size a
  hwx0_1 : ∀ i : grid0.Coords, EltTy.bits .f32 = 32 ∨ (Rect.block (s := S64x256x256) S64x8x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S15x2x252x252.size a ≤ S15x128x252x252.size a
  hwx1_0 : ∀ i : grid1.Coords, EltTy.bits .f32 = 32 ∨ (Rect.block (s := S15x128x252x252) S15x2x252x252.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x252x252.size a ≤ S128x252x252.size a
  hwx1_1 : ∀ i : grid1.Coords, EltTy.bits .f32 = 32 ∨ (Rect.block (s := S128x252x252) S2x252x252.size (cc1_transform_1 i) (hinb1_1 i)).WholeWords (EltTy.packing .f32)

variable [Facts₀]

def gather_S64x256x256_S16x3_S16x64x5x5_123_n_n_n_012_1_6455 : GatherDims S64x256x256 S16x3 S16x64x5x5 where
  offsetDims := [1, 2, 3]
  collapsedSliceDims := []
  operandBatchingDims := []
  startIndicesBatchingDims := []
  startIndexMap := [0, 1, 2]
  indexVectorDim := 1
  sliceSizes := ![64, 5, 5]
  wf := gather_S64x256x256_S16x3_S16x64x5x5_123_n_n_n_012_1_6455_wf
def gather_S128x252x252_S16x3_S16x1x1x1_123_n_n_n_012_1_111 : GatherDims S128x252x252 S16x3 S16x1x1x1 where
  offsetDims := [1, 2, 3]
  collapsedSliceDims := []
  operandBatchingDims := []
  startIndicesBatchingDims := []
  startIndexMap := [0, 1, 2]
  indexVectorDim := 1
  sliceSizes := ![1, 1, 1]
  wf := gather_S128x252x252_S16x3_S16x1x1x1_123_n_n_n_012_1_111_wf
def gather_S128_S16x1_S16_n_0_n_n_0_1_1 : GatherDims S128 S16x1 S16 where
  offsetDims := []
  collapsedSliceDims := [0]
  operandBatchingDims := []
  startIndicesBatchingDims := []
  startIndexMap := [0]
  indexVectorDim := 1
  sliceSizes := ![1]
  wf := gather_S128_S16x1_S16_n_0_n_n_0_1_1_wf
def scatter_S128x64x5x5_S16x1_S16x64x5x5_123_0_0_1 : ScatterDims S128x64x5x5 S16x1 S16x64x5x5 where
  updateWindowDims := [1, 2, 3]
  insertedWindowDims := [0]
  scatterDimsToOperandDims := [0]
  indexVectorDim := 1
  wf := scatter_S128x64x5x5_S16x1_S16x64x5x5_123_0_0_1_wf

abbrev win0_0 : Pipeline.Window sig grid0 :=
  Pipeline.Window.ofSpec (Memref.whole main_arg0) S15x64x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S15x2x252x252.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2x252x252.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S15x64x256x256 : Shape := ⟨4, ![15, 64, 256, 256]⟩
abbrev S15x128x252x252 : Shape := ⟨4, ![15, 128, 252, 252]⟩
abbrev S16x3 : Shape := ⟨2, ![16, 3]⟩
abbrev S128x64x5x5 : Shape := ⟨4, ![128, 64, 5, 5]⟩
abbrev S128 : Shape := ⟨1, ![128]⟩
abbrev S_ : Shape := ⟨0, ![]⟩
abbrev S64x256x256 : Shape := ⟨3, ![64, 256, 256]⟩
abbrev S128x252x252 : Shape := ⟨3, ![128, 252, 252]⟩
abbrev S16x1 : Shape := ⟨2, ![16, 1]⟩
abbrev S16 : Shape := ⟨1, ![16]⟩
abbrev S16x64x5x5 : Shape := ⟨4, ![16, 64, 5, 5]⟩
abbrev S16x1x1x1 : Shape := ⟨4, ![16, 1, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S15x64x256x256, .f32⟩
  | .hbm, ⟨1, _⟩ => ⟨S15x128x252x252, .f32⟩
  | .hbm, ⟨2, _⟩ => ⟨S16x3, .i32⟩
  | .hbm, ⟨3, _⟩ => ⟨S128x64x5x5, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S64x256x256, .f32⟩
  | .hbm, ⟨8, _⟩ => ⟨S_, .f32⟩
  | .hbm, ⟨9, _⟩ => ⟨S128x252x252, .f32⟩
  | .hbm, ⟨10, _⟩ => ⟨S16x1, .i32⟩
  | .hbm, ⟨11, _⟩ => ⟨S16, .i32⟩
  | .hbm, ⟨12, _⟩ => ⟨S16x1, .i32⟩
  | .hbm, ⟨13, _⟩ => ⟨S16, .i32⟩
  | .hbm, ⟨14, _⟩ => ⟨S16x1, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16x1, .i32⟩
  | .hbm, ⟨32, _⟩ => ⟨S16x1, .i32⟩
  | .hbm, ⟨33, _⟩ => ⟨S16x1, .i32⟩
  | .hbm, ⟨34, _⟩ => ⟨S16x3, .i32⟩
  | .hbm, ⟨35, _⟩ => ⟨S16x64x5x5, .f32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S_, .i32⟩
  | .hbm, ⟨40, _⟩ => ⟨S16, .i32⟩
  | .hbm, ⟨41, _⟩ => ⟨S16, .i32⟩
  | .hbm, ⟨42, _⟩ => ⟨S16, .i32⟩
  | .hbm, ⟨43, _⟩ => ⟨S_, .i32⟩
  | .hbm, ⟨44, _⟩ => ⟨S16, .i32⟩
  | .hbm, ⟨45, _⟩ => ⟨S16, .i1⟩
  | .hbm, ⟨46, _⟩ => ⟨S_, .i32⟩
  | .hbm, ⟨47, _⟩ => ⟨S16, .i32⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i1⟩
  | .hbm, ⟨53, _⟩ => ⟨S_, .i32⟩
  | .hbm, ⟨54, _⟩ => ⟨S16, .i32⟩
  | .hbm, ⟨55, _⟩ => ⟨S16, .i32⟩
  | .hbm, ⟨56, _⟩ => ⟨S16, .i32⟩
  | .hbm, ⟨57, _⟩ => ⟨S16x1, .i32⟩
  | .hbm, ⟨58, _⟩ => ⟨S16x1, .i32⟩
  | .hbm, ⟨59, _⟩ => ⟨S16x1, .i32⟩
  | .hbm, ⟨60, _⟩ => ⟨S16x3, .i32⟩
  | .hbm, ⟨61, _⟩ => ⟨S16x1x1x1, .f32⟩
  | .hbm, ⟨62, _⟩ => ⟨S16, .f32⟩
  | .hbm, ⟨63, _⟩ => ⟨S16x1x1x1, .f32⟩
  | .hbm, ⟨64, _⟩ => ⟨S16x64x5x5, .f32⟩
  | .hbm, ⟨65, _⟩ => ⟨S16x64x5x5, .i1⟩
  | .hbm, ⟨66, _⟩ => ⟨S16x1, .i32⟩
  | .hbm, ⟨67, _⟩ => ⟨S16, .i32⟩
  | .hbm, ⟨68, _⟩ => ⟨S_, .i32⟩
  | .hbm, ⟨69, _⟩ => ⟨S16, .i32⟩
  | .hbm, ⟨70, _⟩ => ⟨S16, .i1⟩
  | .hbm, ⟨71, _⟩ => ⟨S_, .i32⟩
  | .hbm, ⟨72, _⟩ => ⟨S16, .i32⟩
  | .hbm, ⟨73, _⟩ => ⟨S16, .i32⟩
  | .hbm, ⟨74, _⟩ => ⟨S16, .i32⟩
  | .hbm, ⟨75, _⟩ => ⟨S16x1, .i32⟩
  | .hbm, ⟨76, _⟩ => ⟨S16, .f32⟩
  | .hbm, ⟨77, _⟩ => ⟨S16x1x1x1, .f32⟩
  | .hbm, ⟨78, _⟩ => ⟨S_, .i32⟩
  | .hbm, ⟨79, _⟩ => ⟨S16, .i32⟩
  | .hbm, ⟨80, _⟩ => ⟨S16, .i1⟩
  | .hbm, ⟨81, _⟩ => ⟨S_, .i32⟩
  | .hbm, ⟨82, _⟩ => ⟨S16, .i32⟩
  | .hbm, ⟨83, _⟩ => ⟨S16, .i32⟩
  | .hbm, ⟨84, _⟩ => ⟨S16, .i32⟩
  | .hbm, ⟨85, _⟩ => ⟨S16x1, .i32⟩
  | .hbm, ⟨86, _⟩ => ⟨S16, .f32⟩
  | .hbm, ⟨87, _⟩ => ⟨S16x1x1x1, .f32⟩
  | .hbm, ⟨88, _⟩ => ⟨S16x64x5x5, .f32⟩
  | .hbm, ⟨89, _⟩ => ⟨S16x64x5x5, .f32⟩
  | .hbm, ⟨90, _⟩ => ⟨S16x64x5x5, .f32⟩
  | .hbm, ⟨91, _⟩ => ⟨S_, .f32⟩
  | .hbm, ⟨92, _⟩ => ⟨S128x64x5x5, .f32⟩
  | .hbm, ⟨93, _⟩ => ⟨S_, .i32⟩
  | .hbm, ⟨94, _⟩ => ⟨S16, .i32⟩
  | .hbm, ⟨95, _⟩ => ⟨S16, .i1⟩
  | .hbm, ⟨96, _⟩ => ⟨S_, .i32⟩
  | .hbm, ⟨97, _⟩ => ⟨S16, .i32⟩
  | .hbm, ⟨98, _⟩ => ⟨S16, .i32⟩
  | .hbm, ⟨99, _⟩ => ⟨S16, .i32⟩
  | .hbm, ⟨100, _⟩ => ⟨S16x1, .i32⟩
  | .hbm, ⟨101, _⟩ => ⟨S128x64x5x5, .f32⟩
  | .hbm, ⟨102, _⟩ => ⟨S_, .f32⟩
  | .hbm, ⟨103, _⟩ => ⟨S128x64x5x5, .f32⟩
  | .hbm, ⟨104, _⟩ => ⟨S128x64x5x5, .f32⟩
  | .hbm, ⟨105, _⟩ => ⟨S_, .f32⟩
  | .hbm, ⟨106, _⟩ => ⟨S128x64x5x5, .f32⟩
  | .hbm, ⟨107, _⟩ => ⟨S128x64x5x5, .f32⟩
  | .hbm, ⟨108, _⟩ => ⟨S128x64x5x5, .f32⟩
  | .hbm, ⟨109, _⟩ => ⟨S128x64x5x5, .f32⟩
  | .hbm, ⟨110, _⟩ => ⟨S128x64x5x5, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S128x64x5x5, .f32⟩
  | .hbm, ⟨115, _⟩ => ⟨S128x64x5x5, .f32⟩
  | .hbm, ⟨116, _⟩ => ⟨S_, .f32⟩
  | .hbm, ⟨117, _⟩ => ⟨S128x64x5x5, .f32⟩
  | .hbm, ⟨118, _⟩ => ⟨S128x64x5x5, .f32⟩
  | _, _ => ⟨S15x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call0_v0 : Ref sig .tc := ⟨.hbm, 88, rfl⟩
abbrev main_call0_v1 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_c_16 : Ref sig .tc := ⟨.hbm, 93, rfl⟩
abbrev main_v67 : Ref sig .tc := ⟨.hbm, 94, rfl⟩
abbrev main_v68 : Ref sig .tc := ⟨.hbm, 95, rfl⟩
abbrev main_c_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_18 : Ref sig .tc := ⟨.hbm, 102, rfl⟩
abbrev main_v74 : Ref sig .tc := ⟨.hbm, 103, rfl⟩
abbrev main_v75 : Ref sig .tc := ⟨.hbm, 104, rfl⟩
abbrev main_cst_19 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_20 : Ref sig .tc := ⟨.hbm, 111, rfl⟩
abbrev main_cst_21 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_v81 : Ref sig .tc := ⟨.hbm, 118, rfl⟩

abbrev nD : Nat := 1
abbrev τ : Topo := Topo.v7x

variable {F : FTy → Type} [FloatOps F]

class Facts₀ : Prop where
  reducesTo_S15x64x256x256_S64x256x256_d0 : S15x64x256x256.ReducesTo [0] S64x256x256
  h_S_ : 0 < S_.numel
  reducesTo_S15x128x252x252_S128x252x252_d0 : S15x128x252x252.ReducesTo [0] S128x252x252
  slices_S16x3_S16x1_0_0 : S16x3.Slices ![0, 0] S16x1
  shapeCasts_S16x1_S16 : S16x1.ShapeCasts S16
  slices_S16x3_S16x1_0_1 : S16x3.Slices ![0, 1] S16x1
  slices_S16x3_S16x1_0_2 : S16x3.Slices ![0, 2] S16x1
  bcast_S_S16 : S_.BroadcastsInDim S16 (![] : Fin 0 → Fin S16.rank)
  bcast_S_S16x1 : S_.BroadcastsInDim S16x1 (![] : Fin 0 → Fin S16x1.rank)
  bcast_S16_S16x1_0 : S16.BroadcastsInDim S16x1 (![0] : Fin 1 → Fin S16x1.rank)
  concatenates_S16x1_S16x1_S16x1_S16x3_d1 : Shape.Concatenates [S16x1, S16x1, S16x1] S16x3 1
  shapeCasts_S16x1x1x1_S16 : S16x1x1x1.ShapeCasts S16
  bcast_S16_S16x1x1x1_0 : S16.BroadcastsInDim S16x1x1x1 (![0] : Fin 1 → Fin S16x1x1x1.rank)
  bcast_S16x1x1x1_S16x64x5x5_0_1_2_3 : S16x1x1x1.BroadcastsInDim S16x64x5x5 (![0, 1, 2, 3] : Fin 4 → Fin S16x64x5x5.rank)
  bcast_S_S128x64x5x5 : S_.BroadcastsInDim S128x64x5x5 (![] : Fin 0 → Fin S128x64x5x5.rank)
  gather_S64x256x256_S16x3_S16x64x5x5_123_n_n_n_012_1_6455_wf : GatherDims.WF S64x256x256 S16x3 S16x64x5x5 [1, 2, 3] [] [] [0, 1, 2] [] 1 ![64, 5, 5]
  gather_S128x252x252_S16x3_S16x1x1x1_123_n_n_n_012_1_111_wf : GatherDims.WF S128x252x252 S16x3 S16x1x1x1 [1, 2, 3] [] [] [0, 1, 2] [] 1 ![1, 1, 1]
  gather_S128_S16x1_S16_n_0_n_n_0_1_1_wf : GatherDims.WF S128 S16x1 S16 [] [0] [] [0] [] 1 ![1]
  scatter_S128x64x5x5_S16x1_S16x64x5x5_123_0_0_1_wf : ScatterDims.WF S128x64x5x5 S16x1 S16x64x5x5 [1, 2, 3] [0] [0] 1

variable [Facts₀]

def gather_S64x256x256_S16x3_S16x64x5x5_123_n_n_n_012_1_6455 : GatherDims S64x256x256 S16x3 S16x64x5x5 where
  offsetDims := [1, 2, 3]
  collapsedSliceDims := []
  operandBatchingDims := []
  startIndicesBatchingDims := []
  startIndexMap := [0, 1, 2]
  indexVectorDim := 1
  sliceSizes := ![64, 5, 5]
  wf := gather_S64x256x256_S16x3_S16x64x5x5_123_n_n_n_012_1_6455_wf
def gather_S128x252x252_S16x3_S16x1x1x1_123_n_n_n_012_1_111 : GatherDims S128x252x252 S16x3 S16x1x1x1 where
  offsetDims := [1, 2, 3]
  collapsedSliceDims := []
  operandBatchingDims := []
  startIndicesBatchingDims := []
  startIndexMap := [0, 1, 2]
  indexVectorDim := 1
  sliceSizes := ![1, 1, 1]
  wf := gather_S128x252x252_S16x3_S16x1x1x1_123_n_n_n_012_1_111_wf
def gather_S128_S16x1_S16_n_0_n_n_0_1_1 : GatherDims S128 S16x1 S16 where
  offsetDims := []
  collapsedSliceDims := [0]
  operandBatchingDims := []
  startIndicesBatchingDims := []
  startIndexMap := [0]
  indexVectorDim := 1
  sliceSizes := ![1]
  wf := gather_S128_S16x1_S16_n_0_n_n_0_1_1_wf
def scatter_S128x64x5x5_S16x1_S16x64x5x5_123_0_0_1 : ScatterDims S128x64x5x5 S16x1 S16x64x5x5 where
  updateWindowDims := [1, 2, 3]
  insertedWindowDims := [0]
  scatterDimsToOperandDims := [0]
  indexVectorDim := 1
  wf := scatter_S128x64x5x5_S16x1_S16x64x5x5_123_0_0_1_wf

class Facts : Prop extends Facts₀ where

variable [Facts]
-- ==== Proof.KernelSums.lean ====
/-
  The two time-sum kernels of `Kernel`, each at an arbitrary valuation `V` of the TensorCore's buffers at the
  moment its region is entered.

  Both kernels do the same thing on a block: load the whole input block `x : [15, …]`, add its 15 slices along
  the leading (time) axis, and store the sum over the whole output block. So after the body the input's staging
  buffer still holds the block of the input array at the grid point, and the output's staging buffer holds the
  time-sum of that block, whatever it held before (the body also loads the output buffer, and ignores the value).
  This module states that as the pipelines' proof data (`sumDat0`, `sumDat1`) and proves the per-point body
  obligations; it is generic in the float instance.
-/
import proofs.«181246_j87308095193752_1_alg».proof.Proof.Gen.Kernel.Launch
import proofs.«181246_j87308095193752_1_alg».proof.Proof.Gen.Kernel.Skeleton
import proofs.«181246_j87308095193752_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TimeSum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input-spike sum: blocks of 8 image rows, 32 grid points -/

/-- The block of window `w`'s array that grid point `t` addresses, read off the entry valuation. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole output block, as the one rectangle the body stores through. -/
abbrev whole0 : Rect S64x8x256 := Rect.unit (s := S64x8x256) ![0, 0, 0] S64x8x256.size inb_S64x8x256_S64x8x256_0_0_0
/-- The whole input block, as the one rectangle the body loads through. -/
abbrev wholeIn0 : Rect S15x64x8x256 := Rect.unit (s := S15x64x8x256) ![0, 0, 0, 0] S15x64x8x256.size inb_S15x64x8x256_S15x64x8x256_0_0_0_0

/-- What the output's staging buffer holds after the body, from the input block `x`: the time-sum of `x`,
    stored over the whole buffer. -/
def sum0 (x : Vec F S15x64x8x256 .f32) : Vec F S64x8x256 .f32 :=
  View.canon [⟨whole0, k0_pay1 (View.ld x wholeIn0)⟩]

/-- One store through the whole-block rectangle covers the block. -/
theorem covers0 (p : Vec F S64x8x256 .f32) (y : S64x8x256.Idx) :
    ∃ pc ∈ ([⟨whole0, p⟩] : List (View.Piece (Elt F) S64x8x256 .f32)), y ∈ pc.1.set :=
  View.cover_of_tiled [⟨whole0, p⟩] S64x8x256.size (by rfl) y

set_option maxHeartbeats 1000000 in
/-- The body on two whole staging buffers, the input's holding `x` and the output's anything: it ends with the
    input's unchanged and the output's at the time-sum of `x`. -/
theorem body0 (c : Dev nD) (E : Set ℕ) (i : grid0.Coords) (a : Memref sig .tc .vmem S15x64x8x256 .f32) (ha : a.IsWhole)
    (o : Memref sig .tc .vmem S64x8x256 .f32) (ho : o.IsWhole) (x : Vec F S15x64x8x256 .f32) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (sum0 x)) -∗ K ⟨⟩))
      ⊢ wp frame (wpE (defs₀ (F := F)) Variants.none c none) E (cc0__sum_time_kernel i a ha o ho) K := by
  simp only [cc0__sum_time_kernel_eq_skeleton]; unfold cc0__sum_time_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers0 _)

/-- The proof data of the input-spike pipeline on core `c`: its arrays as `V` has them; after the body at point `t`
    the input's buffer at its block and the output's at the time-sum of that block; nothing owed, full shares, and
    the invariant that only carries the rest of the core's scoped state and its generator register along. -/
def sumDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => sum0 (blk0 V c 0 t)
  Φ _ := Pipeline.ΦA spec0 c
  q _ := fullShare
  owed _ := 0

theorem sumDat0_A (c : Dev nD) (w : Fin cfg0.W) : (sumDat0 V c).A w = V c (Pipeline.arrRef spec0 w) := by
  dsimp only [sumDat0]
theorem sumDat0_after_in (c : Dev nD) (t : Fin cfg0.N) : (sumDat0 V c).after 0 t = blk0 V c 0 t := by dsimp only [sumDat0]
theorem sumDat0_after_out (c : Dev nD) (t : Fin cfg0.N) : (sumDat0 V c).after 1 t = sum0 (blk0 V c 0 t) := by dsimp only [sumDat0]

/-- Before the body the input's current staging buffer holds the point's block: the window is fetched at every point,
    and the body leaves the block in place. -/
theorem sumDat0_before_in (c : Dev nD) (t : Fin cfg0.N) (d) : (sumDat0 V c).before 0 t d = blk0 V c 0 t :=
  ((sumDat0 V c).before_in_eq_fetched 0 rfl (fun _ => rfl) (fun _ _ _ => rfl)
      (fun t => by rw [sumDat0_after_in]; unfold Dat.blockOf blk0; rw [sumDat0_A]; try rfl) t d).trans
    (by unfold Dat.fetched Dat.blockOf blk0; rw [sumDat0_A]; try rfl)

/-- The per-point obligation of the input-spike pipeline. -/
theorem obligation0 (c : Dev nD) : BodyObligation (sumDat0 (F := F) V c) (defs₀ (F := F)) Variants.none () Set.univ := fun t => by
  rw [bigSep_W0, bigSep_W0]
  show iprop((sumDat0 V c).Φ t.castSucc ∗ (sumDat0 V c).owesAt () t.castSucc
      ∗ (∃ d, owns (c : Thread nD τ) (st0_0 t) fullShare ((sumDat0 V c).before 0 t d))
      ∗ (∃ d, owns (c : Thread nD τ) (st0_1 t) fullShare ((sumDat0 V c).before 1 t d)))
    ⊢ wp frame (wpE (defs₀ (F := F)) Variants.none c none) Set.univ (bodyAt0 t) (fun _ =>
      iprop((sumDat0 V c).Φ t.succ ∗ (sumDat0 V c).owesAt () t.succ
        ∗ owns (c : Thread nD τ) (st0_0 t) fullShare ((sumDat0 V c).after 0 t)
        ∗ owns (c : Thread nD τ) (st0_1 t) fullShare ((sumDat0 V c).after 1 t)))
  unfold bodyAt0
  simp only [sumDat0_before_in]
  rw [show (sumDat0 V c).Φ t.succ = (sumDat0 V c).Φ t.castSucc from rfl,
    show (sumDat0 V c).owesAt () t.succ = (sumDat0 V c).owesAt () t.castSucc from rfl,
    sumDat0_after_in, sumDat0_after_out]
  iintro ⟨HΦ, Ho, ⟨%d0, H0⟩, ⟨%d1, H1⟩⟩
  iapply (body0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## The output-spike sum: blocks of 2 feature maps, 64 grid points -/

/-- The block of window `w`'s array that grid point `t` addresses, read off the entry valuation. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole1 : Rect S2x252x252 := Rect.unit (s := S2x252x252) ![0, 0, 0] S2x252x252.size inb_S2x252x252_S2x252x252_0_0_0
abbrev wholeIn1 : Rect S15x2x252x252 := Rect.unit (s := S15x2x252x252) ![0, 0, 0, 0] S15x2x252x252.size inb_S15x2x252x252_S15x2x252x252_0_0_0_0

/-- What the output's staging buffer holds after the body, from the input block `x`: the time-sum of `x`. -/
def sum1 (x : Vec F S15x2x252x252 .f32) : Vec F S2x252x252 .f32 :=
  View.canon [⟨whole1, k1_pay1 (View.ld x wholeIn1)⟩]

theorem covers1 (p : Vec F S2x252x252 .f32) (y : S2x252x252.Idx) :
    ∃ pc ∈ ([⟨whole1, p⟩] : List (View.Piece (Elt F) S2x252x252 .f32)), y ∈ pc.1.set :=
  View.cover_of_tiled [⟨whole1, p⟩] S2x252x252.size (by rfl) y

set_option maxHeartbeats 1000000 in
/-- The body on two whole staging buffers, the input's holding `x` and the output's anything: it ends with the
    input's unchanged and the output's at the time-sum of `x`. -/
theorem body1 (c : Dev nD) (E : Set ℕ) (i : grid1.Coords) (a : Memref sig .tc .vmem S15x2x252x252 .f32) (ha : a.IsWhole)
    (o : Memref sig .tc .vmem S2x252x252 .f32) (ho : o.IsWhole) (x : Vec F S15x2x252x252 .f32) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (sum1 x)) -∗ K ⟨⟩))
      ⊢ wp frame (wpE (defs₀ (F := F)) Variants.none c none) E (cc1__sum_time_kernel i a ha o ho) K := by
  simp only [cc1__sum_time_kernel_eq_skeleton]; unfold cc1__sum_time_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers1 _)

/-- The proof data of the output-spike pipeline on core `c`, in the same shape as `sumDat0`. -/
def sumDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => sum1 (blk1 V c 0 t)
  Φ _ := Pipeline.ΦA spec1 c
  q _ := fullShare
  owed _ := 0

theorem sumDat1_A (c : Dev nD) (w : Fin cfg1.W) : (sumDat1 V c).A w = V c (Pipeline.arrRef spec1 w) := by
  dsimp only [sumDat1]
theorem sumDat1_after_in (c : Dev nD) (t : Fin cfg1.N) : (sumDat1 V c).after 0 t = blk1 V c 0 t := by dsimp only [sumDat1]
theorem sumDat1_after_out (c : Dev nD) (t : Fin cfg1.N) : (sumDat1 V c).after 1 t = sum1 (blk1 V c 0 t) := by dsimp only [sumDat1]

theorem sumDat1_before_in (c : Dev nD) (t : Fin cfg1.N) (d) : (sumDat1 V c).before 0 t d = blk1 V c 0 t :=
  ((sumDat1 V c).before_in_eq_fetched 0 rfl (fun _ => rfl) (fun _ _ _ => rfl)
      (fun t => by rw [sumDat1_after_in]; unfold Dat.blockOf blk1; rw [sumDat1_A]; try rfl) t d).trans
    (by unfold Dat.fetched Dat.blockOf blk1; rw [sumDat1_A]; try rfl)

/-- The per-point obligation of the output-spike pipeline. -/
theorem obligation1 (c : Dev nD) : BodyObligation (sumDat1 (F := F) V c) (defs₀ (F := F)) Variants.none () Set.univ := fun t => by
  rw [bigSep_W1, bigSep_W1]
  show iprop((sumDat1 V c).Φ t.castSucc ∗ (sumDat1 V c).owesAt () t.castSucc
      ∗ (∃ d, owns (c : Thread nD τ) (st1_0 t) fullShare ((sumDat1 V c).before 0 t d))
      ∗ (∃ d, owns (c : Thread nD τ) (st1_1 t) fullShare ((sumDat1 V c).before 1 t d)))
    ⊢ wp frame (wpE (defs₀ (F := F)) Variants.none c none) Set.univ (bodyAt1 t) (fun _ =>
      iprop((sumDat1 V c).Φ t.succ ∗ (sumDat1 V c).owesAt () t.succ
        ∗ owns (c : Thread nD τ) (st1_0 t) fullShare ((sumDat1 V c).after 0 t)
        ∗ owns (c : Thread nD τ) (st1_1 t) fullShare ((sumDat1 V c).after 1 t)))
  unfold bodyAt1
  simp only [sumDat1_before_in]
  rw [show (sumDat1 V c).Φ t.succ = (sumDat1 V c).Φ t.castSucc from rfl,
    show (sumDat1 V c).owesAt () t.succ = (sumDat1 V c).owesAt () t.castSucc from rfl,
    sumDat1_after_in, sumDat1_after_out]
  iintro ⟨HΦ, Ho, ⟨%d0, H0⟩, ⟨%d1, H1⟩⟩
  iapply (body1 c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.Kernel.TimeSum

end
-- ==== Proof.KernelRun.lean ====
/-
  The whole run of `Kernel`'s entry point, generic in the float instance.

  The entry point is: the input-spike time-sum region, the output-spike time-sum region, and then 109 host
  operations (in five consecutive stretches) that never touch a kernel again. This module follows the TensorCore's
  buffer contents through those seven steps as a fold from the launch memory,

    E0 (launch) → E1 (after region 0) → E2 (after region 1) → E3 … E7 (after each host stretch),

  where a region replaces its output array by what its write-backs leave and keeps every other buffer, and a host
  stretch is the fold of its operations. It then shows that every weakly fair execution terminates without a fault
  in a state whose unscoped buffers hold exactly `E7`; the frame (arguments unchanged) is read off that.
-/
import proofs.«181246_j87308095193752_1_alg».proof.Proof.KernelSums

set_option maxRecDepth 16384

noncomputable section

namespace Cert.Kernel.Whole

open Cert.Kernel Cert.Kernel.Gen Cert.Kernel.TimeSum
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the seven boundaries -/

/-- At launch. -/
abbrev E0 : Dev nD → Valuation τ sig (Elt F) := fun c b => (s₀ m ρ).mem ((c : Dev nD), b)
abbrev V0 : (c : Dev nD) → (b : Ref sig .tc) → Buf (Elt F) ((c : Thread nD τ).loc b) := fun c b => E0 m ρ c b
/-- After the input-spike region: its arrays at what the pipeline leaves, everything else as at launch. -/
def E1 (c : Dev nD) : Valuation τ sig (Elt F) :=
  Pipeline.withArrays spec0 c (E0 m ρ c) fun w => (sumDat0 (V0 m ρ) c).arrAt w cfg0.N
abbrev V1 : (c : Dev nD) → (b : Ref sig .tc) → Buf (Elt F) ((c : Thread nD τ).loc b) := fun c b => E1 m ρ c b
/-- After the output-spike region. -/
def E2 (c : Dev nD) : Valuation τ sig (Elt F) :=
  Pipeline.withArrays spec1 c (E1 m ρ c) fun w => (sumDat1 (V1 m ρ) c).arrAt w cfg1.N
abbrev V2 : (c : Dev nD) → (b : Ref sig .tc) → Buf (Elt F) ((c : Thread nD τ).loc b) := fun c b => E2 m ρ c b
/-- After each of the five host stretches. -/
abbrev E3 : Dev nD → Valuation τ sig (Elt F) := fun c => StableHlo.after main_part0_ops0 (E2 m ρ c)
abbrev E4 : Dev nD → Valuation τ sig (Elt F) := fun c => StableHlo.after main_part1_ops0 (E3 m ρ c)
abbrev E5 : Dev nD → Valuation τ sig (Elt F) := fun c => StableHlo.after main_part1_ops1 (E4 m ρ c)
abbrev E6 : Dev nD → Valuation τ sig (Elt F) := fun c => StableHlo.after main_part1_ops2 (E5 m ρ c)
abbrev E7 : Dev nD → Valuation τ sig (Elt F) := fun c => StableHlo.after main_part1_ops3 (E6 m ρ c)

theorem E1_arr (c : Dev nD) (w : Fin cfg0.W) :
    E1 m ρ c (Proc.devRef .tc (Pipeline.arrRef spec0 w)) = (sumDat0 (V0 m ρ) c).arrAt w cfg0.N := by
  unfold E1; exact Pipeline.withArrays_arr spec0 launch0.win.arr_inj c _ _ w
theorem E1_other (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
theorem E2_arr (c : Dev nD) (w : Fin cfg1.W) :
    E2 m ρ c (Proc.devRef .tc (Pipeline.arrRef spec1 w)) = (sumDat1 (V1 m ρ) c).arrAt w cfg1.N := by
  unfold E2; exact Pipeline.withArrays_arr spec1 launch1.win.arr_inj c _ _ w
theorem E2_other (c : Dev nD) (b : Ref sig .tc) (hb : ∀ w, Pipeline.arrRef spec1 w ≠ b) :
    E2 m ρ c (Proc.devRef .tc b) = E1 m ρ c (Proc.devRef .tc b) := by
  unfold E2; exact Pipeline.withArrays_of_ne spec1 c _ _ b hb

/-! ## The pipelines' proof data and what rides beside the buffers -/

abbrev adm : (p : Fin 2) → (pcfgs (F := F) p).Adm := fun p => (cfgs p).toPCfg_adm
/-- Each pipeline's proof data at the contents its region is entered from. -/
def pdats : (p : Fin 2) → (c : Dev nD) → Dat τ (Elt F) Unit ℕ (UR sig nD τ) ℕ (Pipeline.pin (pcfgs (F := F)) adm p) c
  | ⟨0, _⟩ => fun c => sumDat0 (V0 m ρ) c
  | ⟨1, _⟩ => fun c => sumDat1 (V1 m ρ) c
abbrev 𝒱₀ : Variants := Variants.none
abbrev L : GSem nD τ sig → Finset Unit := fun _ => ∅
abbrev lv : GSem nD τ sig → Unit → ℕ := fun _ _ => 0
/-- Beside the buffers every step carries the core's generator register, at some state, and the fact that the core
    owes nothing. -/
abbrev Side (c : Dev nD) : sProp 𝕄 := iprop((∃ r, prngReg c r) ∗ ∃ W, owes (c : Thread nD τ) (0 : CellTallies nD τ sig Unit) W)
/-- The thread state at a boundary: every unscoped buffer at the boundary's contents, and `Side`. -/
abbrev At (E : Dev nD → Valuation τ sig (Elt F)) (c : Dev nD) : sProp 𝕄 :=
  iprop(StableHlo.held (c : Thread nD τ) (Pipeline.ucRefs τ sig) (E c) ∗ Side c)

/-- A stretch of host operations as a step from the contents `E` to their fold over `E`. -/
abbrev hostStep (ops : List (HloOp τ sig (Elt F))) (hsub : ops.Forall fun op => op.bufs ⊆ StableHlo.tcRefs τ sig)
    (hfresh : ops.Forall fun op => op.fresh = ∅) (E : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) E Side

theorem fresh3 : (main_part0_ops0 : List (HloOp τ sig (Elt F))).Forall fun op => op.fresh = ∅ := by
  simp only [List.Forall]; repeat' constructor
theorem fresh4 : (main_part1_ops0 : List (HloOp τ sig (Elt F))).Forall fun op => op.fresh = ∅ := by
  simp only [List.Forall]; repeat' constructor
theorem fresh5 : (main_part1_ops1 : List (HloOp τ sig (Elt F))).Forall fun op => op.fresh = ∅ := by
  simp only [List.Forall]; repeat' constructor
theorem fresh6 : (main_part1_ops2 : List (HloOp τ sig (Elt F))).Forall fun op => op.fresh = ∅ := by
  simp only [List.Forall]; repeat' constructor
theorem fresh7 : (main_part1_ops3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as steps -/

theorem exit0_arr (c : Dev nD) (w : Fin cfg0.W) : (sumDat0 (V0 m ρ) c).arrAt w cfg0.N = V1 m ρ c (Pipeline.arrRef spec0 w) :=
  (E1_arr m ρ c w).symm
theorem exit0_rest (c : Dev nD) : ∀ b, b ∉ Finset.univ.image (Pipeline.arrRef spec0) → V1 m ρ c b = V0 m ρ c b :=
  fun b hb => E1_other m ρ c b fun w e => hb (Finset.mem_image.mpr ⟨w, Finset.mem_univ _, e⟩)
theorem exit1_arr (c : Dev nD) (w : Fin cfg1.W) : (sumDat1 (V1 m ρ) c).arrAt w cfg1.N = V2 m ρ c (Pipeline.arrRef spec1 w) :=
  (E2_arr m ρ c w).symm
theorem exit1_rest (c : Dev nD) : ∀ b, b ∉ Finset.univ.image (Pipeline.arrRef spec1) → V2 m ρ c b = V1 m ρ c b :=
  fun b hb => E2_other m ρ c b fun w e => hb (Finset.mem_image.mpr ⟨w, Finset.mem_univ _, e⟩)

set_option backward.isDefEq.respectTransparency.types false in
/-- The input-spike region, from the launch contents `E0` to `E1`: on entry its two arrays are split off the unscoped
    buffers and the generator register goes into the pipeline's invariant; on exit both come back, the arrays at
    what the pipeline left. The kernel has no semaphore of its own and owes nothing. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := At (E0 m ρ) c
  post c := At (E1 m ρ) c
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-spike region, from `E1` to `E2`, in the same way. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m ρ) c).loose
  hwaits := Pipeline.hwaits_of_owed_zero _ _ _ _ L lv 1 fun _ _ => rfl
  pre c := At (E1 m ρ) c
  post c := At (E2 m ρ) c
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry point as the seven steps, and the launch -/

abbrev steps : List (Pipeline.Seg (pcfgs (F := F)) adm (pdats m ρ) () defs₀ 𝒱₀ L lv) :=
  [ .region (region0 m ρ),
    .region (region1 m ρ),
    .host (hostStep main_part0_ops0 main_part0_ops0_sub fresh3 (E2 m ρ)),
    .host (hostStep main_part1_ops0 main_part1_ops0_sub fresh4 (E3 m ρ)),
    .host (hostStep main_part1_ops1 main_part1_ops1_sub fresh5 (E4 m ρ)),
    .host (hostStep main_part1_ops2 main_part1_ops2_sub fresh6 (E5 m ρ)),
    .host (hostStep main_part1_ops3 main_part1_ops3_sub fresh7 (E6 m ρ)) ]

theorem main_is_steps (c : Dev nD) : main (F := F) c = Pipeline.Seg.run (steps m ρ) :=
  (main_chain_windows c).trans (by chain_rfl)

/-- The last thread state without the `owes`. -/
abbrev Last (c : Dev nD) : sProp 𝕄 := iprop(StableHlo.held (c : Thread nD τ) (Pipeline.ucRefs τ sig) (E7 m ρ c) ∗ ∃ r, prngReg c r)

set_option backward.isDefEq.respectTransparency.types false in
/-- Every weakly fair execution of the entry point terminates, nothing faulting, and in the final state every unscoped
    TensorCore buffer holds what the fold `E7` says. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = E7 m ρ c b) :=
  Pipeline.θ_run_regions_kit (pcfgs (F := F)) adm (pdats m ρ) () cellOf_inj emb₁ defs₀ 𝒱₀ L lv m ρ main (steps m ρ)
    (fun c Q => by rw [main_is_steps m ρ c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (E0 m ρ)) (Tₙ := Last m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (E7 m ρ c) ∗ Side c)
        ⊢ iprop(Last m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E7 m ρ c b)
    (hfin := fun c s' => by
      iintro ⟨⟨Hh, -⟩, HSI⟩
      unfold StableHlo.held
      imodintro
      iapply (pointsTo_read_all (Pipeline.ucRefs τ sig) (fun b => (((c : Thread nD τ)).1, b)) (E7 m ρ c) s')
      isplitl [Hh] <;> iassumption)
    (hQ := fun s h c => h c)

end Cert.Kernel.Whole

end
-- ==== Proof.KernelArgs.lean ====
/-
  The frame of `Kernel`: the six argument arrays end as launched.

  No host operation writes an argument and no region writes one (a region reads its argument through an input
  window and writes only its own result array), so following an argument's buffer back through the seven steps of
  the run reaches the launch memory.
-/
import proofs.«181246_j87308095193752_1_alg».proof.Proof.KernelRun

set_option maxRecDepth 16384

noncomputable section

namespace Cert.Kernel.Whole

open Cert.Kernel Cert.Kernel.Gen Cert.Kernel.TimeSum
open Idealize.ShloMosaic Idealize.ShloMosaic.TcCoe Idealize.SL.Sem Idealize.ShloMosaic.StableHlo
open Idealize.ShloMosaic.Pipeline (Dat)

variable {F : FTy → Type} [FloatOps F]

/-- The five host stretches, folded over any contents `V`. -/
abbrev hostFold (V : Valuation τ sig (Elt F)) : Valuation τ sig (Elt F) :=
  after main_part1_ops3 (after main_part1_ops2 (after main_part1_ops1 (after main_part1_ops0 (after main_part0_ops0 V))))

set_option maxHeartbeats 4000000 in
theorem hostFold_arg0 (V : Valuation τ sig (Elt F)) : hostFold V (Proc.devRef .tc main_arg0) = V (Proc.devRef .tc main_arg0) := by
  dsimp only [hostFold, main_part1_ops3, main_part1_ops2, main_part1_ops1, main_part1_ops0, main_part0_ops0]
  after_results_simp
set_option maxHeartbeats 4000000 in
theorem hostFold_arg1 (V : Valuation τ sig (Elt F)) : hostFold V (Proc.devRef .tc main_arg1) = V (Proc.devRef .tc main_arg1) := by
  dsimp only [hostFold, main_part1_ops3, main_part1_ops2, main_part1_ops1, main_part1_ops0, main_part0_ops0]
  after_results_simp
set_option maxHeartbeats 4000000 in
theorem hostFold_arg2 (V : Valuation τ sig (Elt F)) : hostFold V (Proc.devRef .tc main_arg2) = V (Proc.devRef .tc main_arg2) := by
  dsimp only [hostFold, main_part1_ops3, main_part1_ops2, main_part1_ops1, main_part1_ops0, main_part0_ops0]
  after_results_simp
set_option maxHeartbeats 4000000 in
theorem hostFold_arg3 (V : Valuation τ sig (Elt F)) : hostFold V (Proc.devRef .tc main_arg3) = V (Proc.devRef .tc main_arg3) := by
  dsimp only [hostFold, main_part1_ops3, main_part1_ops2, main_part1_ops1, main_part1_ops0, main_part0_ops0]
  after_results_simp
set_option maxHeartbeats 4000000 in
theorem hostFold_arg4 (V : Valuation τ sig (Elt F)) : hostFold V (Proc.devRef .tc main_arg4) = V (Proc.devRef .tc main_arg4) := by
  dsimp only [hostFold, main_part1_ops3, main_part1_ops2, main_part1_ops1, main_part1_ops0, main_part0_ops0]
  after_results_simp
set_option maxHeartbeats 4000000 in
theorem hostFold_arg5 (V : Valuation τ sig (Elt F)) : hostFold V (Proc.devRef .tc main_arg5) = V (Proc.devRef .tc main_arg5) := by
  dsimp only [hostFold, main_part1_ops3, main_part1_ops2, main_part1_ops1, main_part1_ops0, main_part0_ops0]
  after_results_simp

variable (m : (ℓ : Loc nD τ sig) → Buf (Elt F) ℓ) (ρ : Dev nD → PrngReg)

/-! The arguments across the two regions: an input window's array is left as it was entered, and a buffer that is
    not one of a region's two arrays is bypassed. -/

theorem E2_arg0 (c : Dev nD) : E2 m ρ c (Proc.devRef .tc main_arg0) = m ((c : Thread nD τ).loc main_arg0) :=
  calc E2 m ρ c (Proc.devRef .tc main_arg0)
    _ = E1 m ρ c (Proc.devRef .tc main_arg0) := E2_other m ρ c main_arg0 (by decide)
    _ = E0 m ρ c (Proc.devRef .tc main_arg0) :=
        (E1_arr m ρ c 0).trans (((sumDat0 (V0 m ρ) c).arrAt_in 0 rfl _).trans (sumDat0_A (V0 m ρ) c 0))
    _ = m ((c : Thread nD τ).loc main_arg0) := rfl
theorem E1_arg1 (c : Dev nD) : E1 m ρ c (Proc.devRef .tc main_arg1) = m ((c : Thread nD τ).loc main_arg1) :=
  (E1_other m ρ c main_arg1 (by decide)).trans rfl
theorem E2_arg1 (c : Dev nD) : E2 m ρ c (Proc.devRef .tc main_arg1) = m ((c : Thread nD τ).loc main_arg1) :=
  calc E2 m ρ c (Proc.devRef .tc main_arg1)
    _ = E1 m ρ c (Proc.devRef .tc main_arg1) :=
        (E2_arr m ρ c 0).trans (((sumDat1 (V1 m ρ) c).arrAt_in 0 rfl _).trans (sumDat1_A (V1 m ρ) c 0))
    _ = m ((c : Thread nD τ).loc main_arg1) := E1_arg1 m ρ c
theorem E2_arg2 (c : Dev nD) : E2 m ρ c (Proc.devRef .tc main_arg2) = m ((c : Thread nD τ).loc main_arg2) :=
  (E2_other m ρ c main_arg2 (by decide)).trans ((E1_other m ρ c main_arg2 (by decide)).trans rfl)
theorem E2_arg3 (c : Dev nD) : E2 m ρ c (Proc.devRef .tc main_arg3) = m ((c : Thread nD τ).loc main_arg3) :=
  (E2_other m ρ c main_arg3 (by decide)).trans ((E1_other m ρ c main_arg3 (by decide)).trans rfl)
theorem E2_arg4 (c : Dev nD) : E2 m ρ c (Proc.devRef .tc main_arg4) = m ((c : Thread nD τ).loc main_arg4) :=
  (E2_other m ρ c main_arg4 (by decide)).trans ((E1_other m ρ c main_arg4 (by decide)).trans rfl)
theorem E2_arg5 (c : Dev nD) : E2 m ρ c (Proc.devRef .tc main_arg5) = m ((c : Thread nD τ).loc main_arg5) :=
  (E2_other m ρ c main_arg5 (by decide)).trans ((E1_other m ρ c main_arg5 (by decide)).trans rfl)

/-- The end of the run is the host fold of the contents the second region leaves. -/
theorem E7_eq (c : Dev nD) : E7 m ρ c = hostFold (E2 m ρ c) := rfl

/-- The run, with the result buffer named and the six arguments read back to the launch memory. -/
theorem run : θ_run defs (onTc (τ := τ) (main (F := F))) ⟨m, fun _ => 0, ρ⟩ (fun r => ∀ c : Dev nD,
      r.2.mem ((c.tc : Thread nD τ).loc main_v81) = hostFold (E2 m ρ c) (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v81 (by decide)),
     (h c _ (mem_uc main_arg0 (by decide))).trans ((hostFold_arg0 _).trans (E2_arg0 m ρ c)),
     (h c _ (mem_uc main_arg1 (by decide))).trans ((hostFold_arg1 _).trans (E2_arg1 m ρ c)),
     (h c _ (mem_uc main_arg2 (by decide))).trans ((hostFold_arg2 _).trans (E2_arg2 m ρ c)),
     (h c _ (mem_uc main_arg3 (by decide))).trans ((hostFold_arg3 _).trans (E2_arg3 m ρ c)),
     (h c _ (mem_uc main_arg4 (by decide))).trans ((hostFold_arg4 _).trans (E2_arg4 m ρ c)),
     (h c _ (mem_uc main_arg5 (by decide))).trans ((hostFold_arg5 _).trans (E2_arg5 m ρ c))⟩)
    (run_main m ρ)

/-- The frame: every weakly fair execution terminates, nothing faulting, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run m ρ)

end Cert.Kernel.Whole

end
-- ==== Proof.KernelIdealSums.lean ====
/-
  The two time-sum kernels of `KernelIdeal`, each at an arbitrary valuation `V` of the TensorCore's buffers at the
  moment its region is entered.

  Both kernels do the same thing on a block: load the whole input block `x : [15, …]`, add its 15 slices along
  the leading (time) axis, and store the sum over the whole output block. So after the body the input's staging
  buffer still holds the block of the input array at the grid point, and the output's staging buffer holds the
  time-sum of that block, whatever it held before (the body also loads the output buffer, and ignores the value).
  This module states that as the pipelines' proof data (`sumDat0`, `sumDat1`) and proves the per-point body
  obligations; it is generic in the float instance.
-/
import proofs.«181246_j87308095193752_1_alg».proof.Proof.Gen.KernelIdeal.Launch
import proofs.«181246_j87308095193752_1_alg».proof.Proof.Gen.KernelIdeal.Skeleton
import proofs.«181246_j87308095193752_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TimeSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input-spike sum: blocks of 8 image rows, 32 grid points -/

/-- The block of window `w`'s array that grid point `t` addresses, read off the entry valuation. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole output block, as the one rectangle the body stores through. -/
abbrev whole0 : Rect S64x8x256 := Rect.unit (s := S64x8x256) ![0, 0, 0] S64x8x256.size inb_S64x8x256_S64x8x256_0_0_0
/-- The whole input block, as the one rectangle the body loads through. -/
abbrev wholeIn0 : Rect S15x64x8x256 := Rect.unit (s := S15x64x8x256) ![0, 0, 0, 0] S15x64x8x256.size inb_S15x64x8x256_S15x64x8x256_0_0_0_0

/-- What the output's staging buffer holds after the body, from the input block `x`: the time-sum of `x`,
    stored over the whole buffer. -/
def sum0 (x : Vec F S15x64x8x256 .f32) : Vec F S64x8x256 .f32 :=
  View.canon [⟨whole0, k0_pay1 (View.ld x wholeIn0)⟩]

/-- One store through the whole-block rectangle covers the block. -/
theorem covers0 (p : Vec F S64x8x256 .f32) (y : S64x8x256.Idx) :
    ∃ pc ∈ ([⟨whole0, p⟩] : List (View.Piece (Elt F) S64x8x256 .f32)), y ∈ pc.1.set :=
  View.cover_of_tiled [⟨whole0, p⟩] S64x8x256.size (by rfl) y

set_option maxHeartbeats 1000000 in
/-- The body on two whole staging buffers, the input's holding `x` and the output's anything: it ends with the
    input's unchanged and the output's at the time-sum of `x`. -/
theorem body0 (c : Dev nD) (E : Set ℕ) (i : grid0.Coords) (a : Memref sig .tc .vmem S15x64x8x256 .f32) (ha : a.IsWhole)
    (o : Memref sig .tc .vmem S64x8x256 .f32) (ho : o.IsWhole) (x : Vec F S15x64x8x256 .f32) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (sum0 x)) -∗ K ⟨⟩))
      ⊢ wp frame (wpE (defs₀ (F := F)) Variants.none c none) E (cc0__sum_time_kernel i a ha o ho) K := by
  simp only [cc0__sum_time_kernel_eq_skeleton]; unfold cc0__sum_time_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers0 _)

/-- The proof data of the input-spike pipeline on core `c`: its arrays as `V` has them; after the body at point `t`
    the input's buffer at its block and the output's at the time-sum of that block; nothing owed, full shares, and
    the invariant that only carries the rest of the core's scoped state and its generator register along. -/
def sumDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => sum0 (blk0 V c 0 t)
  Φ _ := Pipeline.ΦA spec0 c
  q _ := fullShare
  owed _ := 0

theorem sumDat0_A (c : Dev nD) (w : Fin cfg0.W) : (sumDat0 V c).A w = V c (Pipeline.arrRef spec0 w) := by
  dsimp only [sumDat0]
theorem sumDat0_after_in (c : Dev nD) (t : Fin cfg0.N) : (sumDat0 V c).after 0 t = blk0 V c 0 t := by dsimp only [sumDat0]
theorem sumDat0_after_out (c : Dev nD) (t : Fin cfg0.N) : (sumDat0 V c).after 1 t = sum0 (blk0 V c 0 t) := by dsimp only [sumDat0]

/-- Before the body the input's current staging buffer holds the point's block: the window is fetched at every point,
    and the body leaves the block in place. -/
theorem sumDat0_before_in (c : Dev nD) (t : Fin cfg0.N) (d) : (sumDat0 V c).before 0 t d = blk0 V c 0 t :=
  ((sumDat0 V c).before_in_eq_fetched 0 rfl (fun _ => rfl) (fun _ _ _ => rfl)
      (fun t => by rw [sumDat0_after_in]; unfold Dat.blockOf blk0; rw [sumDat0_A]; try rfl) t d).trans
    (by unfold Dat.fetched Dat.blockOf blk0; rw [sumDat0_A]; try rfl)

/-- The per-point obligation of the input-spike pipeline. -/
theorem obligation0 (c : Dev nD) : BodyObligation (sumDat0 (F := F) V c) (defs₀ (F := F)) Variants.none () Set.univ := fun t => by
  rw [bigSep_W0, bigSep_W0]
  show iprop((sumDat0 V c).Φ t.castSucc ∗ (sumDat0 V c).owesAt () t.castSucc
      ∗ (∃ d, owns (c : Thread nD τ) (st0_0 t) fullShare ((sumDat0 V c).before 0 t d))
      ∗ (∃ d, owns (c : Thread nD τ) (st0_1 t) fullShare ((sumDat0 V c).before 1 t d)))
    ⊢ wp frame (wpE (defs₀ (F := F)) Variants.none c none) Set.univ (bodyAt0 t) (fun _ =>
      iprop((sumDat0 V c).Φ t.succ ∗ (sumDat0 V c).owesAt () t.succ
        ∗ owns (c : Thread nD τ) (st0_0 t) fullShare ((sumDat0 V c).after 0 t)
        ∗ owns (c : Thread nD τ) (st0_1 t) fullShare ((sumDat0 V c).after 1 t)))
  unfold bodyAt0
  simp only [sumDat0_before_in]
  rw [show (sumDat0 V c).Φ t.succ = (sumDat0 V c).Φ t.castSucc from rfl,
    show (sumDat0 V c).owesAt () t.succ = (sumDat0 V c).owesAt () t.castSucc from rfl,
    sumDat0_after_in, sumDat0_after_out]
  iintro ⟨HΦ, Ho, ⟨%d0, H0⟩, ⟨%d1, H1⟩⟩
  iapply (body0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! ## The output-spike sum: blocks of 2 feature maps, 64 grid points -/

/-- The block of window `w`'s array that grid point `t` addresses, read off the entry valuation. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole1 : Rect S2x252x252 := Rect.unit (s := S2x252x252) ![0, 0, 0] S2x252x252.size inb_S2x252x252_S2x252x252_0_0_0
abbrev wholeIn1 : Rect S15x2x252x252 := Rect.unit (s := S15x2x252x252) ![0, 0, 0, 0] S15x2x252x252.size inb_S15x2x252x252_S15x2x252x252_0_0_0_0

/-- What the output's staging buffer holds after the body, from the input block `x`: the time-sum of `x`. -/
def sum1 (x : Vec F S15x2x252x252 .f32) : Vec F S2x252x252 .f32 :=
  View.canon [⟨whole1, k1_pay1 (View.ld x wholeIn1)⟩]

theorem covers1 (p : Vec F S2x252x252 .f32) (y : S2x252x252.Idx) :
    ∃ pc ∈ ([⟨whole1, p⟩] : List (View.Piece (Elt F) S2x252x252 .f32)), y ∈ pc.1.set :=
  View.cover_of_tiled [⟨whole1, p⟩] S2x252x252.size (by rfl) y

set_option maxHeartbeats 1000000 in
/-- The body on two whole staging buffers, the input's holding `x` and the output's anything: it ends with the
    input's unchanged and the output's at the time-sum of `x`. -/
theorem body1 (c : Dev nD) (E : Set ℕ) (i : grid1.Coords) (a : Memref sig .tc .vmem S15x2x252x252 .f32) (ha : a.IsWhole)
    (o : Memref sig .tc .vmem S2x252x252 .f32) (ho : o.IsWhole) (x : Vec F S15x2x252x252 .f32) (K : PUnit → sProp 𝕄) :
    iprop(owns (c : Thread nD τ) a fullShare x ∗ (∃ d, owns (c : Thread nD τ) o fullShare d)
        ∗ (iprop(owns (c : Thread nD τ) a fullShare x ∗ owns (c : Thread nD τ) o fullShare (sum1 x)) -∗ K ⟨⟩))
      ⊢ wp frame (wpE (defs₀ (F := F)) Variants.none c none) E (cc1__sum_time_kernel i a ha o ho) K := by
  simp only [cc1__sum_time_kernel_eq_skeleton]; unfold cc1__sum_time_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers1 _)

/-- The proof data of the output-spike pipeline on core `c`, in the same shape as `sumDat0`. -/
def sumDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => sum1 (blk1 V c 0 t)
  Φ _ := Pipeline.ΦA spec1 c
  q _ := fullShare
  owed _ := 0

theorem sumDat1_A (c : Dev nD) (w : Fin cfg1.W) : (sumDat1 V c).A w = V c (Pipeline.arrRef spec1 w) := by
  dsimp only [sumDat1]
theorem sumDat1_after_in (c : Dev nD) (t : Fin cfg1.N) : (sumDat1 V c).after 0 t = blk1 V c 0 t := by dsimp only [sumDat1]
theorem sumDat1_after_out (c : Dev nD) (t : Fin cfg1.N) : (sumDat1 V c).after 1 t = sum1 (blk1 V c 0 t) := by dsimp only [sumDat1]

theorem sumDat1_before_in (c : Dev nD) (t : Fin cfg1.N) (d) : (sumDat1 V c).before 0 t d = blk1 V c 0 t :=
  ((sumDat1 V c).before_in_eq_fetched 0 rfl (fun _ => rfl) (fun _ _ _ => rfl)
      (fun t => by rw [sumDat1_after_in]; unfold Dat.blockOf blk1; rw [sumDat1_A]; try rfl) t d).trans
    (by unfold Dat.fetched Dat.blockOf blk1; rw [sumDat1_A]; try rfl)

/-- The per-point obligation of the output-spike pipeline. -/
theorem obligation1 (c : Dev nD) : BodyObligation (sumDat1 (F := F) V c) (defs₀ (F := F)) Variants.none () Set.univ := fun t => by
  rw [bigSep_W1, bigSep_W1]
  show iprop((sumDat1 V c).Φ t.castSucc ∗ (sumDat1 V c).owesAt () t.castSucc
      ∗ (∃ d, owns (c : Thread nD τ) (st1_0 t) fullShare ((sumDat1 V c).before 0 t d))
      ∗ (∃ d, owns (c : Thread nD τ) (st1_1 t) fullShare ((sumDat1 V c).before 1 t d)))
    ⊢ wp frame (wpE (defs₀ (F := F)) Variants.none c none) Set.univ (bodyAt1 t) (fun _ =>
      iprop((sumDat1 V c).Φ t.succ ∗ (sumDat1 V c).owesAt () t.succ
        ∗ owns (c : Thread nD τ) (st1_0 t) fullShare ((sumDat1 V c).after 0 t)
        ∗ owns (c : Thread nD τ) (st1_1 t) fullShare ((sumDat1 V c).after 1 t)))
  unfold bodyAt1
  simp only [sumDat1_before_in]
  rw [show (sumDat1 V c).Φ t.succ = (sumDat1 V c).Φ t.castSucc from rfl,
    show (sumDat1 V c).owesAt () t.succ = (sumDat1 V c).owesAt () t.castSucc from rfl,
    sumDat1_after_in, sumDat1_after_out]
  iintro ⟨HΦ, Ho, ⟨%d0, H0⟩, ⟨%d1, H1⟩⟩
  iapply (body1 c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.TimeSum

end
-- ==== Proof.KernelIdealRun.lean ====
/-
  The whole run of `KernelIdeal`'s entry point, generic in the float instance.

  The entry point is: the input-spike time-sum region, the output-spike time-sum region, and then 109 host
  operations (in five consecutive stretches) that never touch a kernel again. This module follows the TensorCore's
  buffer contents through those seven steps as a fold from the launch memory,

    E0 (launch) → E1 (after region 0) → E2 (after region 1) → E3 … E7 (after each host stretch),

  where a region replaces its output array by what its write-backs leave and keeps every other buffer, and a host
  stretch is the fold of its operations. It then shows that every weakly fair execution terminates without a fault
  in a state whose unscoped buffers hold exactly `E7`; the frame (arguments unchanged) is read off that.
-/
import proofs.«181246_j87308095193752_1_alg».proof.Proof.KernelIdealSums

set_option maxRecDepth 16384

noncomputable section

namespace Cert.KernelIdeal.Whole

open Cert.KernelIdeal Cert.KernelIdeal.Gen Cert.KernelIdeal.TimeSum
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the seven boundaries -/

/-- At launch. -/
abbrev E0 : Dev nD → Valuation τ sig (Elt F) := fun c b => (s₀ m ρ).mem ((c : Dev nD), b)
abbrev V0 : (c : Dev nD) → (b : Ref sig .tc) → Buf (Elt F) ((c : Thread nD τ).loc b) := fun c b => E0 m ρ c b
/-- After the input-spike region: its arrays at what the pipeline leaves, everything else as at launch. -/
def E1 (c : Dev nD) : Valuation τ sig (Elt F) :=
  Pipeline.withArrays spec0 c (E0 m ρ c) fun w => (sumDat0 (V0 m ρ) c).arrAt w cfg0.N
abbrev V1 : (c : Dev nD) → (b : Ref sig .tc) → Buf (Elt F) ((c : Thread nD τ).loc b) := fun c b => E1 m ρ c b
/-- After the output-spike region. -/
def E2 (c : Dev nD) : Valuation τ sig (Elt F) :=
  Pipeline.withArrays spec1 c (E1 m ρ c) fun w => (sumDat1 (V1 m ρ) c).arrAt w cfg1.N
abbrev V2 : (c : Dev nD) → (b : Ref sig .tc) → Buf (Elt F) ((c : Thread nD τ).loc b) := fun c b => E2 m ρ c b
/-- After each of the five host stretches. -/
abbrev E3 : Dev nD → Valuation τ sig (Elt F) := fun c => StableHlo.after main_part0_ops0 (E2 m ρ c)
abbrev E4 : Dev nD → Valuation τ sig (Elt F) := fun c => StableHlo.after main_part1_ops0 (E3 m ρ c)
abbrev E5 : Dev nD → Valuation τ sig (Elt F) := fun c => StableHlo.after main_part1_ops1 (E4 m ρ c)
abbrev E6 : Dev nD → Valuation τ sig (Elt F) := fun c => StableHlo.after main_part1_ops2 (E5 m ρ c)
abbrev E7 : Dev nD → Valuation τ sig (Elt F) := fun c => StableHlo.after main_part1_ops3 (E6 m ρ c)

theorem E1_arr (c : Dev nD) (w : Fin cfg0.W) :
    E1 m ρ c (Proc.devRef .tc (Pipeline.arrRef spec0 w)) = (sumDat0 (V0 m ρ) c).arrAt w cfg0.N := by
  unfold E1; exact Pipeline.withArrays_arr spec0 launch0.win.arr_inj c _ _ w
theorem E1_other (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
theorem E2_arr (c : Dev nD) (w : Fin cfg1.W) :
    E2 m ρ c (Proc.devRef .tc (Pipeline.arrRef spec1 w)) = (sumDat1 (V1 m ρ) c).arrAt w cfg1.N := by
  unfold E2; exact Pipeline.withArrays_arr spec1 launch1.win.arr_inj c _ _ w
theorem E2_other (c : Dev nD) (b : Ref sig .tc) (hb : ∀ w, Pipeline.arrRef spec1 w ≠ b) :
    E2 m ρ c (Proc.devRef .tc b) = E1 m ρ c (Proc.devRef .tc b) := by
  unfold E2; exact Pipeline.withArrays_of_ne spec1 c _ _ b hb

/-! ## The pipelines' proof data and what rides beside the buffers -/

abbrev adm : (p : Fin 2) → (pcfgs (F := F) p).Adm := fun p => (cfgs p).toPCfg_adm
/-- Each pipeline's proof data at the contents its region is entered from. -/
def pdats : (p : Fin 2) → (c : Dev nD) → Dat τ (Elt F) Unit ℕ (UR sig nD τ) ℕ (Pipeline.pin (pcfgs (F := F)) adm p) c
  | ⟨0, _⟩ => fun c => sumDat0 (V0 m ρ) c
  | ⟨1, _⟩ => fun c => sumDat1 (V1 m ρ) c
abbrev 𝒱₀ : Variants := Variants.none
abbrev L : GSem nD τ sig → Finset Unit := fun _ => ∅
abbrev lv : GSem nD τ sig → Unit → ℕ := fun _ _ => 0
/-- Beside the buffers every step carries the core's generator register, at some state, and the fact that the core
    owes nothing. -/
abbrev Side (c : Dev nD) : sProp 𝕄 := iprop((∃ r, prngReg c r) ∗ ∃ W, owes (c : Thread nD τ) (0 : CellTallies nD τ sig Unit) W)
/-- The thread state at a boundary: every unscoped buffer at the boundary's contents, and `Side`. -/
abbrev At (E : Dev nD → Valuation τ sig (Elt F)) (c : Dev nD) : sProp 𝕄 :=
  iprop(StableHlo.held (c : Thread nD τ) (Pipeline.ucRefs τ sig) (E c) ∗ Side c)

/-- A stretch of host operations as a step from the contents `E` to their fold over `E`. -/
abbrev hostStep (ops : List (HloOp τ sig (Elt F))) (hsub : ops.Forall fun op => op.bufs ⊆ StableHlo.tcRefs τ sig)
    (hfresh : ops.Forall fun op => op.fresh = ∅) (E : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) E Side

theorem fresh3 : (main_part0_ops0 : List (HloOp τ sig (Elt F))).Forall fun op => op.fresh = ∅ := by
  simp only [List.Forall]; repeat' constructor
theorem fresh4 : (main_part1_ops0 : List (HloOp τ sig (Elt F))).Forall fun op => op.fresh = ∅ := by
  simp only [List.Forall]; repeat' constructor
theorem fresh5 : (main_part1_ops1 : List (HloOp τ sig (Elt F))).Forall fun op => op.fresh = ∅ := by
  simp only [List.Forall]; repeat' constructor
theorem fresh6 : (main_part1_ops2 : List (HloOp τ sig (Elt F))).Forall fun op => op.fresh = ∅ := by
  simp only [List.Forall]; repeat' constructor
theorem fresh7 : (main_part1_ops3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two regions as steps -/

theorem exit0_arr (c : Dev nD) (w : Fin cfg0.W) : (sumDat0 (V0 m ρ) c).arrAt w cfg0.N = V1 m ρ c (Pipeline.arrRef spec0 w) :=
  (E1_arr m ρ c w).symm
theorem exit0_rest (c : Dev nD) : ∀ b, b ∉ Finset.univ.image (Pipeline.arrRef spec0) → V1 m ρ c b = V0 m ρ c b :=
  fun b hb => E1_other m ρ c b fun w e => hb (Finset.mem_image.mpr ⟨w, Finset.mem_univ _, e⟩)
theorem exit1_arr (c : Dev nD) (w : Fin cfg1.W) : (sumDat1 (V1 m ρ) c).arrAt w cfg1.N = V2 m ρ c (Pipeline.arrRef spec1 w) :=
  (E2_arr m ρ c w).symm
theorem exit1_rest (c : Dev nD) : ∀ b, b ∉ Finset.univ.image (Pipeline.arrRef spec1) → V2 m ρ c b = V1 m ρ c b :=
  fun b hb => E2_other m ρ c b fun w e => hb (Finset.mem_image.mpr ⟨w, Finset.mem_univ _, e⟩)

set_option backward.isDefEq.respectTransparency.types false in
/-- The input-spike region, from the launch contents `E0` to `E1`: on entry its two arrays are split off the unscoped
    buffers and the generator register goes into the pipeline's invariant; on exit both come back, the arrays at
    what the pipeline left. The kernel has no semaphore of its own and owes nothing. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ L lv 0 fun _ _ => rfl
  pre c := At (E0 m ρ) c
  post c := At (E1 m ρ) c
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-spike region, from `E1` to `E2`, in the same way. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m ρ) c).loose
  hwaits := Pipeline.hwaits_of_owed_zero _ _ _ _ L lv 1 fun _ _ => rfl
  pre c := At (E1 m ρ) c
  post c := At (E2 m ρ) c
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry point as the seven steps, and the launch -/

abbrev steps : List (Pipeline.Seg (pcfgs (F := F)) adm (pdats m ρ) () defs₀ 𝒱₀ L lv) :=
  [ .region (region0 m ρ),
    .region (region1 m ρ),
    .host (hostStep main_part0_ops0 main_part0_ops0_sub fresh3 (E2 m ρ)),
    .host (hostStep main_part1_ops0 main_part1_ops0_sub fresh4 (E3 m ρ)),
    .host (hostStep main_part1_ops1 main_part1_ops1_sub fresh5 (E4 m ρ)),
    .host (hostStep main_part1_ops2 main_part1_ops2_sub fresh6 (E5 m ρ)),
    .host (hostStep main_part1_ops3 main_part1_ops3_sub fresh7 (E6 m ρ)) ]

theorem main_is_steps (c : Dev nD) : main (F := F) c = Pipeline.Seg.run (steps m ρ) :=
  (main_chain_windows c).trans (by chain_rfl)

/-- The last thread state without the `owes`. -/
abbrev Last (c : Dev nD) : sProp 𝕄 := iprop(StableHlo.held (c : Thread nD τ) (Pipeline.ucRefs τ sig) (E7 m ρ c) ∗ ∃ r, prngReg c r)

set_option backward.isDefEq.respectTransparency.types false in
/-- Every weakly fair execution of the entry point terminates, nothing faulting, and in the final state every unscoped
    TensorCore buffer holds what the fold `E7` says. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = E7 m ρ c b) :=
  Pipeline.θ_run_regions_kit (pcfgs (F := F)) adm (pdats m ρ) () cellOf_inj emb₁ defs₀ 𝒱₀ L lv m ρ main (steps m ρ)
    (fun c Q => by rw [main_is_steps m ρ c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (E0 m ρ)) (Tₙ := Last m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (E7 m ρ c) ∗ Side c)
        ⊢ iprop(Last m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E7 m ρ c b)
    (hfin := fun c s' => by
      iintro ⟨⟨Hh, -⟩, HSI⟩
      unfold StableHlo.held
      imodintro
      iapply (pointsTo_read_all (Pipeline.ucRefs τ sig) (fun b => (((c : Thread nD τ)).1, b)) (E7 m ρ c) s')
      isplitl [Hh] <;> iassumption)
    (hQ := fun s h c => h c)

end Cert.KernelIdeal.Whole

end
-- ==== Proof.KernelIdealArgs.lean ====
/-
  The frame of `KernelIdeal`: the six argument arrays end as launched.

  No host operation writes an argument and no region writes one (a region reads its argument through an input
  window and writes only its own result array), so following an argument's buffer back through the seven steps of
  the run reaches the launch memory.
-/
import proofs.«181246_j87308095193752_1_alg».proof.Proof.KernelIdealRun

set_option maxRecDepth 16384

noncomputable section

namespace Cert.KernelIdeal.Whole

open Cert.KernelIdeal Cert.KernelIdeal.Gen Cert.KernelIdeal.TimeSum
open Idealize.ShloMosaic Idealize.ShloMosaic.TcCoe Idealize.SL.Sem Idealize.ShloMosaic.StableHlo
open Idealize.ShloMosaic.Pipeline (Dat)

variable {F : FTy → Type} [FloatOps F]

/-- The five host stretches, folded over any contents `V`. -/
abbrev hostFold (V : Valuation τ sig (Elt F)) : Valuation τ sig (Elt F) :=
  after main_part1_ops3 (after main_part1_ops2 (after main_part1_ops1 (after main_part1_ops0 (after main_part0_ops0 V))))

set_option maxHeartbeats 4000000 in
theorem hostFold_arg0 (V : Valuation τ sig (Elt F)) : hostFold V (Proc.devRef .tc main_arg0) = V (Proc.devRef .tc main_arg0) := by
  dsimp only [hostFold, main_part1_ops3, main_part1_ops2, main_part1_ops1, main_part1_ops0, main_part0_ops0]
  after_results_simp
set_option maxHeartbeats 4000000 in
theorem hostFold_arg1 (V : Valuation τ sig (Elt F)) : hostFold V (Proc.devRef .tc main_arg1) = V (Proc.devRef .tc main_arg1) := by
  dsimp only [hostFold, main_part1_ops3, main_part1_ops2, main_part1_ops1, main_part1_ops0, main_part0_ops0]
  after_results_simp
set_option maxHeartbeats 4000000 in
theorem hostFold_arg2 (V : Valuation τ sig (Elt F)) : hostFold V (Proc.devRef .tc main_arg2) = V (Proc.devRef .tc main_arg2) := by
  dsimp only [hostFold, main_part1_ops3, main_part1_ops2, main_part1_ops1, main_part1_ops0, main_part0_ops0]
  after_results_simp
set_option maxHeartbeats 4000000 in
theorem hostFold_arg3 (V : Valuation τ sig (Elt F)) : hostFold V (Proc.devRef .tc main_arg3) = V (Proc.devRef .tc main_arg3) := by
  dsimp only [hostFold, main_part1_ops3, main_part1_ops2, main_part1_ops1, main_part1_ops0, main_part0_ops0]
  after_results_simp
set_option maxHeartbeats 4000000 in
theorem hostFold_arg4 (V : Valuation τ sig (Elt F)) : hostFold V (Proc.devRef .tc main_arg4) = V (Proc.devRef .tc main_arg4) := by
  dsimp only [hostFold, main_part1_ops3, main_part1_ops2, main_part1_ops1, main_part1_ops0, main_part0_ops0]
  after_results_simp
set_option maxHeartbeats 4000000 in
theorem hostFold_arg5 (V : Valuation τ sig (Elt F)) : hostFold V (Proc.devRef .tc main_arg5) = V (Proc.devRef .tc main_arg5) := by
  dsimp only [hostFold, main_part1_ops3, main_part1_ops2, main_part1_ops1, main_part1_ops0, main_part0_ops0]
  after_results_simp

variable (m : (ℓ : Loc nD τ sig) → Buf (Elt F) ℓ) (ρ : Dev nD → PrngReg)

/-! The arguments across the two regions: an input window's array is left as it was entered, and a buffer that is
    not one of a region's two arrays is bypassed. -/

theorem E2_arg0 (c : Dev nD) : E2 m ρ c (Proc.devRef .tc main_arg0) = m ((c : Thread nD τ).loc main_arg0) :=
  calc E2 m ρ c (Proc.devRef .tc main_arg0)
    _ = E1 m ρ c (Proc.devRef .tc main_arg0) := E2_other m ρ c main_arg0 (by decide)
    _ = E0 m ρ c (Proc.devRef .tc main_arg0) :=
        (E1_arr m ρ c 0).trans (((sumDat0 (V0 m ρ) c).arrAt_in 0 rfl _).trans (sumDat0_A (V0 m ρ) c 0))
    _ = m ((c : Thread nD τ).loc main_arg0) := rfl
theorem E1_arg1 (c : Dev nD) : E1 m ρ c (Proc.devRef .tc main_arg1) = m ((c : Thread nD τ).loc main_arg1) :=
  (E1_other m ρ c main_arg1 (by decide)).trans rfl
theorem E2_arg1 (c : Dev nD) : E2 m ρ c (Proc.devRef .tc main_arg1) = m ((c : Thread nD τ).loc main_arg1) :=
  calc E2 m ρ c (Proc.devRef .tc main_arg1)
    _ = E1 m ρ c (Proc.devRef .tc main_arg1) :=
        (E2_arr m ρ c 0).trans (((sumDat1 (V1 m ρ) c).arrAt_in 0 rfl _).trans (sumDat1_A (V1 m ρ) c 0))
    _ = m ((c : Thread nD τ).loc main_arg1) := E1_arg1 m ρ c
theorem E2_arg2 (c : Dev nD) : E2 m ρ c (Proc.devRef .tc main_arg2) = m ((c : Thread nD τ).loc main_arg2) :=
  (E2_other m ρ c main_arg2 (by decide)).trans ((E1_other m ρ c main_arg2 (by decide)).trans rfl)
theorem E2_arg3 (c : Dev nD) : E2 m ρ c (Proc.devRef .tc main_arg3) = m ((c : Thread nD τ).loc main_arg3) :=
  (E2_other m ρ c main_arg3 (by decide)).trans ((E1_other m ρ c main_arg3 (by decide)).trans rfl)
theorem E2_arg4 (c : Dev nD) : E2 m ρ c (Proc.devRef .tc main_arg4) = m ((c : Thread nD τ).loc main_arg4) :=
  (E2_other m ρ c main_arg4 (by decide)).trans ((E1_other m ρ c main_arg4 (by decide)).trans rfl)
theorem E2_arg5 (c : Dev nD) : E2 m ρ c (Proc.devRef .tc main_arg5) = m ((c : Thread nD τ).loc main_arg5) :=
  (E2_other m ρ c main_arg5 (by decide)).trans ((E1_other m ρ c main_arg5 (by decide)).trans rfl)

/-- The end of the run is the host fold of the contents the second region leaves. -/
theorem E7_eq (c : Dev nD) : E7 m ρ c = hostFold (E2 m ρ c) := rfl

/-- The run, with the result buffer named and the six arguments read back to the launch memory. -/
theorem run : θ_run defs (onTc (τ := τ) (main (F := F))) ⟨m, fun _ => 0, ρ⟩ (fun r => ∀ c : Dev nD,
      r.2.mem ((c.tc : Thread nD τ).loc main_v81) = hostFold (E2 m ρ c) (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v81 (by decide)),
     (h c _ (mem_uc main_arg0 (by decide))).trans ((hostFold_arg0 _).trans (E2_arg0 m ρ c)),
     (h c _ (mem_uc main_arg1 (by decide))).trans ((hostFold_arg1 _).trans (E2_arg1 m ρ c)),
     (h c _ (mem_uc main_arg2 (by decide))).trans ((hostFold_arg2 _).trans (E2_arg2 m ρ c)),
     (h c _ (mem_uc main_arg3 (by decide))).trans ((hostFold_arg3 _).trans (E2_arg3 m ρ c)),
     (h c _ (mem_uc main_arg4 (by decide))).trans ((hostFold_arg4 _).trans (E2_arg4 m ρ c)),
     (h c _ (mem_uc main_arg5 (by decide))).trans ((hostFold_arg5 _).trans (E2_arg5 m ρ c))⟩)
    (run_main m ρ)

/-- The frame: every weakly fair execution terminates, nothing faulting, with the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run m ρ)

end Cert.KernelIdeal.Whole

end
-- ==== Proof.KernelIdealValue.lean ====
/-
  What the two time-sum pipelines of the idealized kernel leave in their output arrays, as whole-array functions on the
  extended reals.

  Grid point `t` of the first pipeline reads rows `8t … 8t+7` of every channel and time step of the input-spike array
  and writes back, at (channel, row, column), the sum over the 15 time steps; the 32 points' blocks tile the
  [64, 256, 256] output, so the output array ends at `spikeCount` of the input: entry (c, h, w) is
  `∑ k < 15, x[k, c, h, w]`. The second pipeline is the same over blocks of two feature maps of the
  [15, 128, 252, 252] output-spike array, 64 points tiling [128, 252, 252].
-/
import proofs.«181246_j87308095193752_1_alg».proof.Proof.KernelIdealSums
import Idealize.ShloMosaic.Lib.Pipeline.Value
import Idealize.ShloMosaic.PureOps.Ideal.Laws

noncomputable section

namespace Cert.KernelIdeal.SumValue

open Cert.KernelIdeal Cert.KernelIdeal.Gen Cert.KernelIdeal.TimeSum
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## Input spikes: [15, 64, 256, 256] → [64, 256, 256] -/

/-- Entry (k, c, h, w) of the input-spike array, from a time step `k` and an index (c, h, w) of the sum. -/
abbrev atTime0 (i : S64x256x256.Idx) (k : Fin 15) : S15x64x256x256.Idx := fun a => match a with
  | ⟨0, _⟩ => ⟨k.val, k.isLt⟩
  | ⟨1, _⟩ => ⟨(i 0).val, (i 0).isLt⟩
  | ⟨2, _⟩ => ⟨(i 1).val, (i 1).isLt⟩
  | ⟨3, _⟩ => ⟨(i 2).val, (i 2).isLt⟩

/-- The number of input spikes at each (c, h, w): the sum over the 15 time steps. -/
def spikeCount0 (x : S15x64x256x256.Idx → EReal) : S64x256x256.Idx → EReal :=
  fun i => ∑ k : Fin 15, x (atTime0 i k)

/-- The body's one value at an entry of its block: the sum over the block's leading axis. -/
theorem blockSum0 (x : FVec Ideal S15x64x8x256 .f32) (j : S64x8x256.Idx) :
    k0_pay1 x j = ∑ k : Fin 15, x (reduces_S15x64x8x256_S64x8x256.lift j k) := by
  unfold k0_pay1
  exact Ideal.multiReduction_add_single x _ reduces_S15x64x8x256_S64x8x256 (.inl rfl) rfl j

/-- Where the two windows' blocks sit at grid point `t`: rows `8t …` of the input, rows `8t …` of the output. -/
theorem place0 : ∀ t : Fin cfg0.N, win0_0.index t (0 : Fin 4) = 0 ∧ win0_0.index t (1 : Fin 4) = 0
    ∧ win0_0.index t (2 : Fin 4) = t.val ∧ win0_0.index t (3 : Fin 4) = 0
    ∧ win0_1.index t (0 : Fin 3) = 0 ∧ win0_1.index t (1 : Fin 3) = t.val ∧ win0_1.index t (2 : Fin 3) = 0 :=
  (by decide +kernel : ∀ t : Fin grid0.N, _)

/-- What point `t` writes back is block `t` of the spike count of the input array. -/
theorem flushed0 (c : Dev nD) (t : Fin cfg0.N) :
    (sumDat0 V c).flushed 1 t = ((cfg0.win 1).blk t).view.read (Elt Ideal) (spikeCount0 (V c main_arg0)) := by
  show (cfg0.win 1).cut (grid0.coords t) ((sumDat0 V c).after 1 t) = _
  rw [sumDat0_after_out]
  unfold sum0
  rw [View.canon_unit_zero zeros3]
  simp only [View.ld_unit_zero (S := S15x64x8x256) zeros4]
  obtain ⟨e0, e1, e2, e3, e4, e5, e6⟩ := place0 t
  funext j
  show k0_pay1 (blk0 V c 0 t) j = spikeCount0 (V c main_arg0) (((cfg0.win 1).blk t).view.emb j)
  refine (blockSum0 (blk0 V c 0 t) j).trans ?_
  unfold spikeCount0
  refine Finset.sum_congr rfl fun k _ => ?_
  show V c main_arg0 (((cfg0.win 0).blk t).view.emb (reduces_S15x64x8x256_S64x8x256.lift j k))
    = V c main_arg0 (atTime0 (((cfg0.win 1).blk t).view.emb j) k)
  have hidx : ((cfg0.win 0).blk t).view.emb (reduces_S15x64x8x256_S64x8x256.lift j k)
      = atTime0 (((cfg0.win 1).blk t).view.emb j) k := by
    funext a; apply Fin.ext
    match a with
    | ⟨0, _⟩ => show win0_0.index t (0 : Fin 4) * 15 + 1 * k.val = k.val; omega
    | ⟨1, _⟩ => show win0_0.index t (1 : Fin 4) * 64 + 1 * (j 0).val = win0_1.index t (0 : Fin 3) * 64 + 1 * (j 0).val; omega
    | ⟨2, _⟩ => show win0_0.index t (2 : Fin 4) * 8 + 1 * (j 1).val = win0_1.index t (1 : Fin 3) * 8 + 1 * (j 1).val; omega
    | ⟨3, _⟩ => show win0_0.index t (3 : Fin 4) * 256 + 1 * (j 2).val = win0_1.index t (2 : Fin 3) * 256 + 1 * (j 2).val; omega
  rw [hidx]

/-- An index of the sum lies in point `t`'s block iff each coordinate lies in the block's range on its axis. -/
theorem inBlock0 (t : Fin cfg0.N) (i : S64x256x256.Idx) :
    i ∈ ((cfg0.win 1).blk t).view.set ↔ ∀ a : Fin 3, win0_1.index t a * S64x8x256.size a ≤ (i a).val
      ∧ (i a).val < win0_1.index t a * S64x8x256.size a + S64x8x256.size a := by
  show i ∈ ((View.whole main_v0).slice (win0_1.rect t)).set ↔ _
  rw [View.set_slice_whole, Rect.mem_set_unit]
  exact Iff.rfl

/-- Row `h` of the sum is written by grid point `h / 8`. -/
theorem tiled0 (i : S64x256x256.Idx) : ∃ t : Fin cfg0.N, (cfg0.win 1).flush t = true ∧ i ∈ ((cfg0.win 1).blk t).view.set := by
  have h0 : (i 0).val < 64 := (i 0).isLt
  have h1 : (i 1).val < 256 := (i 1).isLt
  have h2 : (i 2).val < 256 := (i 2).isLt
  have hN : cfg0.N = 32 := N_0
  obtain ⟨t, ht⟩ : ∃ t : Fin cfg0.N, t.val = (i 1).val / 8 := ⟨⟨(i 1).val / 8, by rw [hN]; omega⟩, rfl⟩
  obtain ⟨e0, e1, e2, e3, e4, e5, e6⟩ := place0 t
  refine ⟨t, flush0_1 t, ?_⟩
  rw [inBlock0]
  intro a
  match a with
  | ⟨0, _⟩ => show win0_1.index t (0 : Fin 3) * 64 ≤ (i 0).val ∧ (i 0).val < win0_1.index t (0 : Fin 3) * 64 + 64; omega
  | ⟨1, _⟩ => show win0_1.index t (1 : Fin 3) * 8 ≤ (i 1).val ∧ (i 1).val < win0_1.index t (1 : Fin 3) * 8 + 8; omega
  | ⟨2, _⟩ => show win0_1.index t (2 : Fin 3) * 256 ≤ (i 2).val ∧ (i 2).val < win0_1.index t (2 : Fin 3) * 256 + 256; omega

/-- After all 32 points the output array of the first pipeline is the spike count of its input array. -/
theorem final0 (c : Dev nD) : (sumDat0 V c).arrAt 1 cfg0.N = spikeCount0 (V c main_arg0) :=
  (sumDat0 V c).arrAt_eq_of_cover 1 (spikeCount0 (V c main_arg0)) (fun t _ => flushed0 V c t) tiled0

/-! ## Output spikes: [15, 128, 252, 252] → [128, 252, 252] -/

abbrev atTime1 (i : S128x252x252.Idx) (k : Fin 15) : S15x128x252x252.Idx := fun a => match a with
  | ⟨0, _⟩ => ⟨k.val, k.isLt⟩
  | ⟨1, _⟩ => ⟨(i 0).val, (i 0).isLt⟩
  | ⟨2, _⟩ => ⟨(i 1).val, (i 1).isLt⟩
  | ⟨3, _⟩ => ⟨(i 2).val, (i 2).isLt⟩

/-- The number of output spikes at each (f, r, c): the sum over the 15 time steps. -/
def spikeCount1 (x : S15x128x252x252.Idx → EReal) : S128x252x252.Idx → EReal :=
  fun i => ∑ k : Fin 15, x (atTime1 i k)

theorem blockSum1 (x : FVec Ideal S15x2x252x252 .f32) (j : S2x252x252.Idx) :
    k1_pay1 x j = ∑ k : Fin 15, x (reduces_S15x2x252x252_S2x252x252.lift j k) := by
  unfold k1_pay1
  exact Ideal.multiReduction_add_single x _ reduces_S15x2x252x252_S2x252x252 (.inl rfl) rfl j

/-- Where the two windows' blocks sit at grid point `t`: feature maps `2t, 2t+1` of both arrays. -/
theorem place1 : ∀ t : Fin cfg1.N, win1_0.index t (0 : Fin 4) = 0 ∧ win1_0.index t (1 : Fin 4) = t.val
    ∧ win1_0.index t (2 : Fin 4) = 0 ∧ win1_0.index t (3 : Fin 4) = 0
    ∧ win1_1.index t (0 : Fin 3) = t.val ∧ win1_1.index t (1 : Fin 3) = 0 ∧ win1_1.index t (2 : Fin 3) = 0 :=
  (by decide +kernel : ∀ t : Fin grid1.N, _)

theorem flushed1 (c : Dev nD) (t : Fin cfg1.N) :
    (sumDat1 V c).flushed 1 t = ((cfg1.win 1).blk t).view.read (Elt Ideal) (spikeCount1 (V c main_arg1)) := by
  show (cfg1.win 1).cut (grid1.coords t) ((sumDat1 V c).after 1 t) = _
  rw [sumDat1_after_out]
  unfold sum1
  rw [View.canon_unit_zero zeros3]
  simp only [View.ld_unit_zero (S := S15x2x252x252) zeros4]
  obtain ⟨e0, e1, e2, e3, e4, e5, e6⟩ := place1 t
  funext j
  show k1_pay1 (blk1 V c 0 t) j = spikeCount1 (V c main_arg1) (((cfg1.win 1).blk t).view.emb j)
  refine (blockSum1 (blk1 V c 0 t) j).trans ?_
  unfold spikeCount1
  refine Finset.sum_congr rfl fun k _ => ?_
  show V c main_arg1 (((cfg1.win 0).blk t).view.emb (reduces_S15x2x252x252_S2x252x252.lift j k))
    = V c main_arg1 (atTime1 (((cfg1.win 1).blk t).view.emb j) k)
  have hidx : ((cfg1.win 0).blk t).view.emb (reduces_S15x2x252x252_S2x252x252.lift j k)
      = atTime1 (((cfg1.win 1).blk t).view.emb j) k := by
    funext a; apply Fin.ext
    match a with
    | ⟨0, _⟩ => show win1_0.index t (0 : Fin 4) * 15 + 1 * k.val = k.val; omega
    | ⟨1, _⟩ => show win1_0.index t (1 : Fin 4) * 2 + 1 * (j 0).val = win1_1.index t (0 : Fin 3) * 2 + 1 * (j 0).val; omega
    | ⟨2, _⟩ => show win1_0.index t (2 : Fin 4) * 252 + 1 * (j 1).val = win1_1.index t (1 : Fin 3) * 252 + 1 * (j 1).val; omega
    | ⟨3, _⟩ => show win1_0.index t (3 : Fin 4) * 252 + 1 * (j 2).val = win1_1.index t (2 : Fin 3) * 252 + 1 * (j 2).val; omega
  rw [hidx]

theorem inBlock1 (t : Fin cfg1.N) (i : S128x252x252.Idx) :
    i ∈ ((cfg1.win 1).blk t).view.set ↔ ∀ a : Fin 3, win1_1.index t a * S2x252x252.size a ≤ (i a).val
      ∧ (i a).val < win1_1.index t a * S2x252x252.size a + S2x252x252.size a := by
  show i ∈ ((View.whole main_v1).slice (win1_1.rect t)).set ↔ _
  rw [View.set_slice_whole, Rect.mem_set_unit]
  exact Iff.rfl

/-- Feature map `f` of the sum is written by grid point `f / 2`. -/
theorem tiled1 (i : S128x252x252.Idx) : ∃ t : Fin cfg1.N, (cfg1.win 1).flush t = true ∧ i ∈ ((cfg1.win 1).blk t).view.set := by
  have h0 : (i 0).val < 128 := (i 0).isLt
  have h1 : (i 1).val < 252 := (i 1).isLt
  have h2 : (i 2).val < 252 := (i 2).isLt
  have hN : cfg1.N = 64 := N_1
  obtain ⟨t, ht⟩ : ∃ t : Fin cfg1.N, t.val = (i 0).val / 2 := ⟨⟨(i 0).val / 2, by rw [hN]; omega⟩, rfl⟩
  obtain ⟨e0, e1, e2, e3, e4, e5, e6⟩ := place1 t
  refine ⟨t, flush1_1 t, ?_⟩
  rw [inBlock1]
  intro a
  match a with
  | ⟨0, _⟩ => show win1_1.index t (0 : Fin 3) * 2 ≤ (i 0).val ∧ (i 0).val < win1_1.index t (0 : Fin 3) * 2 + 2; omega
  | ⟨1, _⟩ => show win1_1.index t (1 : Fin 3) * 252 ≤ (i 1).val ∧ (i 1).val < win1_1.index t (1 : Fin 3) * 252 + 252; omega
  | ⟨2, _⟩ => show win1_1.index t (2 : Fin 3) * 252 ≤ (i 2).val ∧ (i 2).val < win1_1.index t (2 : Fin 3) * 252 + 252; omega

/-- After all 64 points the output array of the second pipeline is the spike count of its input array. -/
theorem final1 (c : Dev nD) : (sumDat1 V c).arrAt 1 cfg1.N = spikeCount1 (V c main_arg1) :=
  (sumDat1 V c).arrAt_eq_of_cover 1 (spikeCount1 (V c main_arg1)) (fun t _ => flushed1 V c t) tiled1

end Cert.KernelIdeal.SumValue

end
-- ==== Proof.Bridge.lean ====
/-
  The idealized kernel and the idealized reference compute the same weights.

  The reference sums both spike arrays over time with a host reduction started from 0; the kernel does it with
  the two pipelines. On the extended reals both are the spike counts `∑ k < 15, x[k, ·]` (`0 + s = s`, and a sum
  does not depend on how it is blocked), so the two programs enter the remaining 109 host operations — which are the
  same operations, on the same other arguments — with equal values, and leave them with equal results. The
  remaining operations are never opened: both sides are the same composed term of the two counts and the four other
  arguments.
-/
import proofs.«181246_j87308095193752_1_alg».proof.Proof.KernelIdealArgs
import proofs.«181246_j87308095193752_1_alg».proof.Proof.KernelIdealValue
import proofs.«181246_j87308095193752_1_alg».proof.Proof.Gen.ReferenceIdeal.Run
import proofs.«181246_j87308095193752_1_alg».proof.Proof.Gen.ReferenceIdeal.Read

set_option maxRecDepth 16384

noncomputable section

namespace Cert.Bridge

open Idealize.ShloMosaic Idealize.ShloMosaic.TcCoe Idealize.SL.Sem Idealize.ShloMosaic.StableHlo
open Cert.KernelIdeal.Whole Cert.KernelIdeal.SumValue

/-- The reference's reduction of the input spikes over time, started from 0, is their spike count. -/
theorem ref_count0 (x : (⟨Cert.ReferenceIdeal.S15x64x256x256, .f32⟩ : BufTy).Contents (Elt Ideal)) :
    Host.reduceAdd x (constant (F := Ideal) Cert.ReferenceIdeal.S_ .f32 0x00000000#32)
        Cert.ReferenceIdeal.Facts₀.reducesTo_S15x64x256x256_S64x256x256_d0 Cert.ReferenceIdeal.Facts₀.h_S_
      = spikeCount0 x := by
  funext i
  refine (Cert.ReferenceIdeal.Read.val_main_v0_apply x i).trans ?_
  rw [Cert.ReferenceIdeal.Read.val_main_cst_apply]
  simp only [Ideal.ofBits_def, Ideal.ofBits_zero_f32, zero_add]
  rfl

/-- The reference's reduction of the output spikes over time, started from 0, is their spike count. -/
theorem ref_count1 (x : (⟨Cert.ReferenceIdeal.S15x128x252x252, .f32⟩ : BufTy).Contents (Elt Ideal)) :
    Host.reduceAdd x (constant (F := Ideal) Cert.ReferenceIdeal.S_ .f32 0x00000000#32)
        Cert.ReferenceIdeal.Facts₀.reducesTo_S15x128x252x252_S128x252x252_d0 Cert.ReferenceIdeal.Facts₀.h_S_
      = spikeCount1 x := by
  funext i
  refine (Cert.ReferenceIdeal.Read.val_main_v1_apply x i).trans ?_
  rw [Cert.ReferenceIdeal.Read.val_main_cst_0_apply]
  simp only [Ideal.ofBits_def, Ideal.ofBits_zero_f32, zero_add]
  rfl

/-! ## The two index concatenations, read through the fold

  Each gather's start indices are a concatenation of three [16, 1] columns, printed as one operation over the family of
  its three operand buffers. Read at its result buffer it is `cat3` of the three operands' contents, each at its own
  buffer, so that the pass that follows buffers back to their defining operations goes on through the operands. -/

section Concat
open Cert.KernelIdeal Cert.KernelIdeal.Gen

/-- Three [16, 1] index columns side by side: a [16, 3] index array. -/
def cat3 (u v w : (⟨S16x1, .i32⟩ : BufTy).Contents (Elt Ideal)) : (⟨S16x3, .i32⟩ : BufTy).Contents (Elt Ideal) :=
  concatenate S16x3 1 [⟨S16x1, u⟩, ⟨S16x1, v⟩, ⟨S16x1, w⟩] concatenates_S16x1_S16x1_S16x1_S16x3_d1

theorem cat_v21 (hxs hy) (G : Valuation τ sig (Elt Ideal)) :
    (nary (τ := τ) ![main_v18, main_v19, main_v20] main_v21
        (fun u => concatenate S16x3 1 [⟨S16x1, u 0⟩, ⟨S16x1, u 1⟩, ⟨S16x1, u 2⟩] concatenates_S16x1_S16x1_S16x1_S16x3_d1) hxs hy).result G
        (no_index (Proc.devRef .tc main_v21))
      = cat3 (G (Proc.devRef .tc main_v18)) (G (Proc.devRef .tc main_v19)) (G (Proc.devRef .tc main_v20)) := by
  rw [nary_result]; rfl

theorem cat_v41 (hxs hy) (G : Valuation τ sig (Elt Ideal)) :
    (nary (τ := τ) ![main_v38, main_v39, main_v40] main_v41
        (fun u => concatenate S16x3 1 [⟨S16x1, u 0⟩, ⟨S16x1, u 1⟩, ⟨S16x1, u 2⟩] concatenates_S16x1_S16x1_S16x1_S16x3_d1) hxs hy).result G
        (no_index (Proc.devRef .tc main_v41))
      = cat3 (G (Proc.devRef .tc main_v38)) (G (Proc.devRef .tc main_v39)) (G (Proc.devRef .tc main_v40)) := by
  rw [nary_result]; rfl

end Concat

set_option maxHeartbeats 40000000 in
/-- The kernel's host operations, folded over contents that hold the two spike counts where the reference holds its
    two reductions and the same four other arguments, leave in the result buffer the reference's result. -/
theorem host_result (V : Valuation Cert.KernelIdeal.τ Cert.KernelIdeal.sig (Elt Ideal))
    (m' : (ℓ : Loc Cert.ReferenceIdeal.nD Cert.ReferenceIdeal.τ Cert.ReferenceIdeal.sig) → Buf (Elt Ideal) ℓ) (c' : Dev Cert.ReferenceIdeal.nD)
    (h0 : V (Proc.devRef .tc Cert.KernelIdeal.main_v0) = Host.reduceAdd (m' ((c'.tc : Thread Cert.ReferenceIdeal.nD Cert.ReferenceIdeal.τ).loc Cert.ReferenceIdeal.main_arg0))
        (constant (F := Ideal) Cert.ReferenceIdeal.S_ .f32 0x00000000#32) Cert.ReferenceIdeal.Facts₀.reducesTo_S15x64x256x256_S64x256x256_d0 Cert.ReferenceIdeal.Facts₀.h_S_)
    (h1 : V (Proc.devRef .tc Cert.KernelIdeal.main_v1) = Host.reduceAdd (m' ((c'.tc : Thread Cert.ReferenceIdeal.nD Cert.ReferenceIdeal.τ).loc Cert.ReferenceIdeal.main_arg1))
        (constant (F := Ideal) Cert.ReferenceIdeal.S_ .f32 0x00000000#32) Cert.ReferenceIdeal.Facts₀.reducesTo_S15x128x252x252_S128x252x252_d0 Cert.ReferenceIdeal.Facts₀.h_S_)
    (h2 : V (Proc.devRef .tc Cert.KernelIdeal.main_arg2) = m' ((c'.tc : Thread Cert.ReferenceIdeal.nD Cert.ReferenceIdeal.τ).loc Cert.ReferenceIdeal.main_arg2))
    (h3 : V (Proc.devRef .tc Cert.KernelIdeal.main_arg3) = m' ((c'.tc : Thread Cert.ReferenceIdeal.nD Cert.ReferenceIdeal.τ).loc Cert.ReferenceIdeal.main_arg3))
    (h4 : V (Proc.devRef .tc Cert.KernelIdeal.main_arg4) = m' ((c'.tc : Thread Cert.ReferenceIdeal.nD Cert.ReferenceIdeal.τ).loc Cert.ReferenceIdeal.main_arg4))
    (h5 : V (Proc.devRef .tc Cert.KernelIdeal.main_arg5) = m' ((c'.tc : Thread Cert.ReferenceIdeal.nD Cert.ReferenceIdeal.τ).loc Cert.ReferenceIdeal.main_arg5)) :
    hostFold V (Proc.devRef .tc Cert.KernelIdeal.main_v81) = Cert.ReferenceIdeal.Value.res_main_v81 m' c' := by
  dsimp only [hostFold, Cert.KernelIdeal.Gen.main_part1_ops3, Cert.KernelIdeal.Gen.main_part1_ops2, Cert.KernelIdeal.Gen.main_part1_ops1,
    Cert.KernelIdeal.Gen.main_part1_ops0, Cert.KernelIdeal.Gen.main_part0_ops0]
  -- every buffer followed back to the operation that wrote it
  simp (disch := decide) only [after_cons, after_nil,
      nullary_result', unary_result', binary_result', ternary_result', quaternary_result', reshape_result', cat_v21, cat_v41,
      nullary_result_ne', unary_result_ne', binary_result_ne', ternary_result_ne', quaternary_result_ne', reshape_result_ne',
      nary_result_ne']
  -- the called functions' argument transports are identities, and the concatenations are opened again
  simp only [TRef.toBuf, TRef.ofBuf, cast_eq, cat3]
  rw [h0, h1, h2, h3, h4, h5]
  unfold Cert.ReferenceIdeal.Value.res_main_v81
  rfl

/-! ## The two counts where the host operations find them -/

section Counts
open Cert.KernelIdeal Cert.KernelIdeal.Gen Cert.KernelIdeal.TimeSum

variable (m : (ℓ : Loc Cert.KernelIdeal.nD Cert.KernelIdeal.τ Cert.KernelIdeal.sig) → Buf (Elt Ideal) ℓ) (ρ : Dev Cert.KernelIdeal.nD → PrngReg)

/-- After both regions the first result array holds the spike count of the input-spike argument. -/
theorem E2_v0 (c : Dev Cert.KernelIdeal.nD) :
    E2 m ρ c (Proc.devRef .tc main_v0) = spikeCount0 (m ((c.tc : Thread nD τ).loc main_arg0)) :=
  calc E2 m ρ c (Proc.devRef .tc main_v0)
    _ = E1 m ρ c (Proc.devRef .tc main_v0) := E2_other m ρ c main_v0 (by decide)
    _ = (sumDat0 (V0 m ρ) c).arrAt 1 cfg0.N := E1_arr m ρ c 1
    _ = spikeCount0 (V0 m ρ c main_arg0) := final0 (V0 m ρ) c
    _ = spikeCount0 (m ((c.tc : Thread nD τ).loc main_arg0)) := rfl

/-- and the second the spike count of the output-spike argument. -/
theorem E2_v1 (c : Dev Cert.KernelIdeal.nD) :
    E2 m ρ c (Proc.devRef .tc main_v1) = spikeCount1 (m ((c.tc : Thread nD τ).loc main_arg1)) :=
  calc E2 m ρ c (Proc.devRef .tc main_v1)
    _ = (sumDat1 (V1 m ρ) c).arrAt 1 cfg1.N := E2_arr m ρ c 1
    _ = spikeCount1 (V1 m ρ c main_arg1) := final1 (V1 m ρ) c
    _ = spikeCount1 (m ((c.tc : Thread nD τ).loc main_arg1)) := congrArg spikeCount1 (E1_arg1 m ρ c)

end Counts

end Cert.Bridge

end
-- ==== Proof.lean ====
/-
  The certificate of the spike-timing weight update: a Pallas kernel program against its jnp reference.

  Both programs take the input spikes x : [15, 64, 256, 256], the output spikes y : [15, 128, 252, 252], the 16 winners,
  the weights and the two learning-rate vectors; both first form the spike counts `∑ k < 15, x[k, ·]` and
  `∑ k < 15, y[k, ·]` and then apply the same 109 host operations (index normalisation, two gathers, a comparison, a
  select, a scatter, the stabilised update and the clip). The kernel program forms the two counts by two tiled
  pipelines (8 image rows per grid point, 32 points; 2 feature maps per grid point, 64 points), the reference by a
  host reduction from 0.

  * Frames. The kernel program is run as seven steps — two regions, five stretches of host operations — the buffer
    contents followed as a fold from the launch memory (`Whole.run_main`); the arguments are read back through the
    fold unchanged (`Whole.frame`), at the word-level instance and at the extended reals alike. The reference's frame
    is its generated run with the result dropped.
  * The idealization rewrote nothing, so there is nothing to preserve.
  * Equal results on the extended reals: each pipeline's output array is the spike count of its input
    (`SumValue.final0`, `final1`: a block's sum over its leading axis is the count's block, and the blocks tile the
    array); the reference's reduction from 0 is the same count since `0 + s = s` (`Bridge.ref_count0`, `ref_count1`);
    from there on both programs are one composed term of the two counts and the other arguments
    (`Bridge.host_result`). No finiteness is used: the only law is `0 + s = s`.
-/
import proofs.«181246_j87308095193752_1_alg».proof.Defs
import proofs.«181246_j87308095193752_1_alg».proof.Proof.Gen.Kernel
import proofs.«181246_j87308095193752_1_alg».proof.Proof.Gen.KernelIdeal
import proofs.«181246_j87308095193752_1_alg».proof.Proof.Gen.ReferenceIdeal
import proofs.«181246_j87308095193752_1_alg».proof.Proof.Gen.Pre_finite_inputs
import proofs.«181246_j87308095193752_1_alg».proof.Proof.Gen.ReferenceIdeal.Run
import proofs.«181246_j87308095193752_1_alg».proof.Proof.Gen.ReferenceIdeal.Read
import proofs.«181246_j87308095193752_1_alg».proof.Proof.KernelArgs
import proofs.«181246_j87308095193752_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Whole.frame m ρ

theorem frame_kernelIdeal : Cert.frame_KernelIdeal := fun m ρ _ => Cert.KernelIdeal.Whole.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments the kernel's result is the host fold of the contents its two regions
    leave, and the reference's result is that same value. -/
theorem algebraic : Cert.algebraic_KernelIdeal_ReferenceIdeal := by
  intro m ρ m' ρ' _ hagree
  refine ⟨fun c => Cert.KernelIdeal.Whole.hostFold (Cert.KernelIdeal.Whole.E2 m ρ c) (Proc.devRef .tc Cert.KernelIdeal.main_v81),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.Bridge.host_result (Cert.KernelIdeal.Whole.E2 m ρ c) m' c ?_ ?_ ?_ ?_ ?_ ?_).symm
  · rw [a0, Cert.Bridge.ref_count0]; exact Cert.Bridge.E2_v0 m ρ c
  · rw [a1, Cert.Bridge.ref_count1]; exact Cert.Bridge.E2_v1 m ρ c
  · rw [a2]; exact Cert.KernelIdeal.Whole.E2_arg2 m ρ c
  · rw [a3]; exact Cert.KernelIdeal.Whole.E2_arg3 m ρ c
  · rw [a4]; exact Cert.KernelIdeal.Whole.E2_arg4 m ρ c
  · rw [a5]; exact Cert.KernelIdeal.Whole.E2_arg5 m ρ c

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
